-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S64x128 : Shape := ⟨2, ![64, 128]⟩
abbrev S128 : Shape := ⟨1, ![128]⟩
abbrev S128x128 : Shape := ⟨2, ![128, 128]⟩
abbrev S272x32 : Shape := ⟨2, ![272, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S272x32 : S_.BroadcastsInDim S272x32 (![] : Fin 0 → Fin S272x32.rank)
  reducesTo_S272x32_S_d0_1 : S272x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S272x32 .f32) (main_arg8 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S272x32 .f32 := Host.absf main_arg7
  let main_cst_10 : FVec F S_ .f32 := constant S_ .f32 0x7F800000#32
  let main_v30 : FVec F S272x32 .f32 := broadcastInDim S272x32 ![] bcast_S_S272x32 main_cst_10
  let main_v31 : IVec S272x32 1 := cmpf .olt main_v29 main_v30
  let main_c_11 : IVec S_ 1 := constantI S_ 1 1#1
  let main_v32 : IVec S_ 1 := (fun x v => Host.reduce IntOp.andi x v reducesTo_S272x32_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x16 .f32) (main_arg3 : FVec F S64x128 .f32) (main_arg4 : FVec F S128 .f32) (main_arg5 : FVec F S128x128 .f32) (main_arg6 : FVec F S128 .f32) (main_arg7 : FVec F S272x32 .f32) (main_arg8 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S64x128 : Shape := ⟨2, ![64, 128]⟩
abbrev S128 : Shape := ⟨1, ![128]⟩
abbrev S128x128 : Shape := ⟨2, ![128, 128]⟩
abbrev S272x32 : Shape := ⟨2, ![272, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x272 : Shape := ⟨2, ![800000, 272]⟩
abbrev S800000x32 : Shape := ⟨2, ![800000, 32]⟩
abbrev S8000x272 : Shape := ⟨2, ![8000, 272]⟩
abbrev S8000x32 : Shape := ⟨2, ![8000, 32]⟩
abbrev S1x32 : Shape := ⟨2, ![1, 32]⟩

abbrev nBuf : Space → Nat
  | .hbm => 119
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S272x32, .f32⟩
  | .hbm, ⟨8, _⟩ => ⟨S32, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S1x800000, .i32⟩
  | .hbm, ⟨96, _⟩ => ⟨S800000, .i32⟩
  | .hbm, ⟨97, _⟩ => ⟨S1x800000, .i32⟩
  | .hbm, ⟨98, _⟩ => ⟨S800000, .i32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S_, .i32⟩
  | .hbm, ⟨109, _⟩ => ⟨S800000, .i32⟩
  | .hbm, ⟨110, _⟩ => ⟨S800000, .i1⟩
  | .hbm, ⟨111, _⟩ => ⟨S_, .i32⟩
  | .hbm, ⟨112, _⟩ => ⟨S800000, .i32⟩
  | .hbm, ⟨113, _⟩ => ⟨S800000, .i32⟩
  | .hbm, ⟨114, _⟩ => ⟨S800000, .i32⟩
  | .hbm, ⟨115, _⟩ => ⟨S800000x1, .i32⟩
  | .hbm, ⟨116, _⟩ => ⟨S800000x128, .f32⟩
  | .hbm, ⟨117, _⟩ => ⟨S800000x272, .f32⟩
  | .hbm, ⟨118, _⟩ => ⟨S800000x32, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S8000x272, .f32⟩
  | .local _ .vmem, ⟨11, _⟩ => ⟨S8000x272, .f32⟩
  | .local _ .vmem, ⟨12, _⟩ => ⟨S272x32, .f32⟩
  | .local _ .vmem, ⟨13, _⟩ => ⟨S32, .f32⟩
  | .local _ .vmem, ⟨14, _⟩ => ⟨S8000x32, .f32⟩
  | .local _ .vmem, ⟨15, _⟩ => ⟨S8000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_14 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x272 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S272x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  inb_S8000x272_S8000x272_0_0 : ∀ a, (![0, 0] : Fin 2 → Nat) a + S8000x272.size a ≤ S8000x272.size a
  h_S8000x272 : 0 < S8000x272.numel
  shapeCasts_S8000x272_S8000x272 : S8000x272.ShapeCasts S8000x272
  inb_S272x32_S272x32_0_0 : ∀ a, (![0, 0] : Fin 2 → Nat) a + S272x32.size a ≤ S272x32.size a
  h_S272x32 : 0 < S272x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S8000x272_S272x32_S8000x32_1_0_0_1_n_n_wf : DotDims.WF S8000x272 S272x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x272.size a ≤ S800000x272.size a
  hwx2_0 : ∀ i : grid2.Coords, EltTy.bits .f32 = 32 ∨ (Rect.block (s := S800000x272) S8000x272.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S272x32.size a ≤ S272x32.size a
  hwx2_1 : ∀ i : grid2.Coords, EltTy.bits .f32 = 32 ∨ (Rect.block (s := S272x32) S272x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x32.size a ≤ S800000x32.size a
  hwx2_3 : ∀ i : grid2.Coords, EltTy.bits .f32 = 32 ∨ (Rect.block (s := S800000x32) S8000x32.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x272_S272x32_S8000x32_1_0_0_1_n_n : DotDims S8000x272 S272x32 S8000x32 where
  lhsContracting := [1]
  rhsContracting := [0]
  lhsNonContracting := [0]
  rhsNonContracting := [1]
  lhsBatch := []
  rhsBatch := []
  wf := dot_S8000x272_S272x32_S8000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v84) S8000x272.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S272x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S8000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S64x128 : Shape := ⟨2, ![64, 128]⟩
abbrev S128 : Shape := ⟨1, ![128]⟩
abbrev S128x128 : Shape := ⟨2, ![128, 128]⟩
abbrev S272x32 : Shape := ⟨2, ![272, 32]⟩
abbrev S32 : Shape := ⟨1, ![32]⟩
abbrev S50000x128 : Shape := ⟨2, ![50000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x272 : Shape := ⟨2, ![800000, 272]⟩
abbrev S800000x32 : Shape := ⟨2, ![800000, 32]⟩
abbrev S1x32 : Shape := ⟨2, ![1, 32]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S2x800000, .i32⟩
  | 2 => ⟨S800000x16, .f32⟩
  | 3 => ⟨S64x128, .f32⟩
  | 4 => ⟨S128, .f32⟩
  | 5 => ⟨S128x128, .f32⟩
  | 6 => ⟨S128, .f32⟩
  | 7 => ⟨S272x32, .f32⟩
  | 8 => ⟨S32, .f32⟩
  | 9 => ⟨S50000x128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S1x800000, .i32⟩
  | 75 => ⟨S800000, .i32⟩
  | 76 => ⟨S850000, .i32⟩
  | 77 => ⟨S1x800000, .i32⟩
  | 78 => ⟨S800000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x64, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x800000, .i32⟩
  | 8 => ⟨S800000, .i32⟩
  | 9 => ⟨S1x800000, .i32⟩
  | 10 => ⟨S800000, .i32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x272, .f32⟩
  | 30 => ⟨S800000x32, .f32⟩
  | 31 => ⟨S1x32, .f32⟩
  | 32 => ⟨S800000x32, .f32⟩
  | 33 => ⟨S800000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_c_20 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_22 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  dot_S800000x272_S272x32_S800000x32_1_0_0_1_n_n_wf : DotDims.WF S800000x272 S272x32 S800000x32 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x32_S800000x32_1_0_0_1_n_n : DotDims S800000x272 S272x32 S800000x32 where
  lhsContracting := [1]
  rhsContracting := [0]
  lhsNonContracting := [0]
  rhsNonContracting := [1]
  lhsBatch := []
  rhsBatch := []
  wf := dot_S800000x272_S272x32_S800000x32_1_0_0_1_n_n_wf

class Facts : Prop extends Facts₀ where

variable [Facts]
-- ==== Proof.KbR0.lean ====
/-
  Region 0 of the program: the first dense layer's product. The grid has ten points; at point t the body is
  handed rows [5000·t, 5000·t + 5000) of the node features (a 5000×64 block), the whole 64×128 weight matrix,
  and the matching 5000×128 block of the result. It reads the two inputs whole, rounds them to bf16, multiplies
  them into a zero accumulator, and overwrites the result block whole (after a read of that block whose value is
  never used). So after the body the result block holds one function of the two input blocks, and the inputs'
  blocks are as they were. This module states that per point, at ANY contents V of the buffers on entry.
-/
import proofs.«122578_j27917287424795_1_alg».proof.Proof.Gen.Kernel.Launch
import proofs.«122578_j27917287424795_1_alg».proof.Proof.Gen.Kernel.Skeleton
import proofs.«122578_j27917287424795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev rx0 : Rect S5000x64 := Rect.unit (s := S5000x64) ![0, 0] S5000x64.size inb_S5000x64_S5000x64_0_0
abbrev rw0 : Rect S64x128 := Rect.unit (s := S64x128) ![0, 0] S64x128.size inb_S64x128_S64x128_0_0
abbrev ro0 : Rect S5000x128 := Rect.unit (s := S5000x128) ![0, 0] S5000x128.size inb_S5000x128_S5000x128_0_0

/-- The result block after the body: its one whole store, of the product of the two input blocks. -/
def out0_2 (x0 : Vec F S5000x64 .f32) (x1 : Vec F S64x128 .f32) : Vec F S5000x128 .f32 :=
  View.canon [⟨ro0, k0_pay1 (View.ld x0 rx0) (View.ld x1 rw0)⟩]

/-- The one store covers the block. -/
theorem cover0_2 (p0 : Vec F S5000x128 .f32) (y : S5000x128.Idx) :
    ∃ pc ∈ ([⟨ro0, p0⟩] : List (View.Piece (Elt F) S5000x128 .f32)), y ∈ pc.1.set :=
  View.cover_of_tiled [⟨ro0, p0⟩] S5000x128.size (by rfl) y

set_option maxHeartbeats 1000000 in
/-- The body on whole buffers: inputs at x0, x1 and the result at anything; it returns with the inputs as they were
    and the result at the product of the inputs. -/
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's buffer
    at its block and the result's at the product of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KbR1.lean ====
/-
  Region 1 of the program: the second dense layer's product. Ten grid points; at point t the body is handed rows
  [5000·t, 5000·t + 5000) of the hidden features (a 5000×128 block), the whole 128×128 weight matrix, and the
  matching 5000×128 block of the result. It reads the two inputs whole, rounds them to bf16, multiplies them into a
  zero accumulator and overwrites the result block whole (after an unused read of it). Stated per point, at ANY
  contents V of the buffers on entry.
-/
import proofs.«122578_j27917287424795_1_alg».proof.Proof.Gen.Kernel.Launch
import proofs.«122578_j27917287424795_1_alg».proof.Proof.Gen.Kernel.Skeleton
import proofs.«122578_j27917287424795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden rows' buffer holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point: fetched once, its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rx1 : Rect S5000x128 := Rect.unit (s := S5000x128) ![0, 0] S5000x128.size inb_S5000x128_S5000x128_0_0
abbrev rw1 : Rect S128x128 := Rect.unit (s := S128x128) ![0, 0] S128x128.size inb_S128x128_S128x128_0_0

/-- The result block after the body: its one whole store, of the product of the two input blocks. -/
def out1_2 (x0 : Vec F S5000x128 .f32) (x1 : Vec F S128x128 .f32) : Vec F S5000x128 .f32 :=
  View.canon [⟨rx1, k1_pay1 (View.ld x0 rx1) (View.ld x1 rw1)⟩]

/-- The one store covers the block. -/
theorem cover1_2 (p0 : Vec F S5000x128 .f32) (y : S5000x128.Idx) :
    ∃ pc ∈ ([⟨rx1, p0⟩] : List (View.Piece (Elt F) S5000x128 .f32)), y ∈ pc.1.set :=
  View.cover_of_tiled [⟨rx1, p0⟩] S5000x128.size (by rfl) y

set_option maxHeartbeats 1000000 in
/-- The body on whole buffers: inputs at x0, x1 and the result at anything; it returns with the inputs as they were
    and the result at the product of the inputs. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body each input's buffer
    at its block and the result's at the product of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbR2.lean ====
/-
  Region 2 of the program: the edge layer. One hundred grid points; at point t the body is handed rows
  [8000·t, 8000·t + 8000) of the edge features (an 8000×272 block), the whole 272×32 weight matrix, the whole bias
  vector of 32 entries, and the matching 8000×32 block of the result. It reads the three inputs whole, rounds the
  two matrices to bf16, multiplies them into a zero accumulator, adds the bias to every row, and overwrites the
  result block whole (after an unused read of it). Stated per point, at ANY contents V of the buffers on entry.
-/
import proofs.«122578_j27917287424795_1_alg».proof.Proof.Gen.Kernel.Launch
import proofs.«122578_j27917287424795_1_alg».proof.Proof.Gen.Kernel.Skeleton
import proofs.«122578_j27917287424795_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge rows' buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's buffer holds the whole matrix at every point: fetched once, its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias vector's buffer holds the whole vector at every point: fetched once, its block never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rx2 : Rect S8000x272 := Rect.unit (s := S8000x272) ![0, 0] S8000x272.size inb_S8000x272_S8000x272_0_0
abbrev rw2 : Rect S272x32 := Rect.unit (s := S272x32) ![0, 0] S272x32.size inb_S272x32_S272x32_0_0
abbrev rb2 : Rect S32 := Rect.unit (s := S32) ![0] S32.size inb_S32_S32_0
abbrev ro2 : Rect S8000x32 := Rect.unit (s := S8000x32) ![0, 0] S8000x32.size inb_S8000x32_S8000x32_0_0

/-- The result block after the body: its one whole store, of the product of the two matrix blocks plus the bias. -/
def out2_3 (x0 : Vec F S8000x272 .f32) (x1 : Vec F S272x32 .f32) (x2 : Vec F S32 .f32) : Vec F S8000x32 .f32 :=
  View.canon [⟨ro2, k2_pay1 (View.ld x0 rx2) (View.ld x1 rw2) (View.ld x2 rb2)⟩]

/-- The one store covers the block. -/
theorem cover2_3 (p0 : Vec F S8000x32 .f32) (y : S8000x32.Idx) :
    ∃ pc ∈ ([⟨ro2, p0⟩] : List (View.Piece (Elt F) S8000x32 .f32)), y ∈ pc.1.set :=
  View.cover_of_tiled [⟨ro2, p0⟩] S8000x32.size (by rfl) y

set_option maxHeartbeats 1000000 in
/-- The body on whole buffers: inputs at x0, x1, x2 and the result at anything; it returns with the inputs as they
    were and the result at the product of the matrices plus the bias. -/
theorem sound_kernel2 (c : Dev nD) (E : Set ℕ) (i : grid2.Coords)
    (arg1 : Memref sig .tc .vmem S8000x272 .f32) (harg1 : arg1.IsWhole) (arg2 : Memref sig .tc .vmem S272x32 .f32) (harg2 : arg2.IsWhole)
    (arg3 : Memref sig .tc .vmem S32 .f32) (harg3 : arg3.IsWhole) (arg4 : Memref sig .tc .vmem S8000x32 .f32) (harg4 : arg4.IsWhole)
    (x0 : Vec F S8000x272 .f32) (x1 : Vec F S272x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core c: the arrays as the region finds them; after the body each input's buffer
    at its block and the result's at the product plus the bias; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbRun.lean ====
/-
  The whole program as a run. @main is eleven items in order: three stretches of host operations (the edge lists with
  their self loops, the degrees and their inverse square roots, the per-edge normalisation), region 0 (features times
  the first weight matrix), two stretches (gather, scale, scatter-add, bias; then the rectifier), region 1 (hidden
  features times the second weight matrix), two stretches of the same shape, one stretch that gathers both end points'
  rows and joins them with the edge attributes, and region 2 (edge features times the edge weights, plus bias).

  The contents of every unscoped buffer at the twelve boundaries are a fold from the launch memory: a host stretch maps
  the contents through its operations; a region replaces its arrays by what its pipeline leaves (an input array as it
  was, the result array the fold of its blocks' write-backs) and keeps every other buffer. Each region is entered from
  one boundary's contents and left at the next, so the items chain, and the run ends with every unscoped buffer at the
  last boundary's contents. From that: no item writes an argument array, so each ends as launched.
-/
import proofs.«122578_j27917287424795_1_alg».proof.Proof.KbR0
import proofs.«122578_j27917287424795_1_alg».proof.Proof.KbR1
import proofs.«122578_j27917287424795_1_alg».proof.Proof.KbR2
import proofs.«122578_j27917287424795_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch: the edge lists with self loops, the degrees, their comparison with zero and inverse roots. -/
abbrev W1 : Dev nD → Valuation τ sig (Elt F) := fun c => StableHlo.after hostOps0 (W0 m ρ c)
/-- After the selection of the inverse roots where the degree is positive. -/
abbrev W2 : Dev nD → Valuation τ sig (Elt F) := fun c => StableHlo.after hostOps0_1 (W1 m ρ c)
/-- After the per-edge normalisation (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first layer's aggregation and bias. -/
abbrev W5 : Dev nD → Valuation τ sig (Elt F) := fun c => StableHlo.after hostOps1 (W4 m ρ c)
/-- After the rectifier (region 1's entry). -/
abbrev W6 : Dev nD → Valuation τ sig (Elt F) := fun c => StableHlo.after hostOps1_1 (W5 m ρ c)
abbrev V6 : (c : Dev nD) → (b : Ref sig .tc) → Buf (Elt F) ((c : Thread nD τ).loc b) := fun c b => W6 m ρ c b
/-- At region 1's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the second layer's aggregation and bias. -/
abbrev W8 : Dev nD → Valuation τ sig (Elt F) := fun c => StableHlo.after hostOps2 (W7 m ρ c)
/-- After the rectifier. -/
abbrev W9 : Dev nD → Valuation τ sig (Elt F) := fun c => StableHlo.after hostOps2_1 (W8 m ρ c)
/-- After the edge features are assembled (region 2's entry). -/
abbrev W10 : Dev nD → Valuation τ sig (Elt F) := fun c => StableHlo.after hostOps2_2 (W9 m ρ c)
abbrev V10 : (c : Dev nD) → (b : Ref sig .tc) → Buf (Elt F) ((c : Thread nD τ).loc b) := fun c b => W10 m ρ c b
/-- At region 2's exit: the end of @main. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W6_of (c : Dev nD) (r : Ref sig .tc) (h : r ∉ hostOps1_1_W) : W6 m ρ c r = W5 m ρ c r :=
  StableHlo.after_of_writes_sub hostOps1_1 _ hostOps1_1_writes h
theorem W8_of (c : Dev nD) (r : Ref sig .tc) (h : r ∉ hostOps2_W) : W8 m ρ c r = W7 m ρ c r :=
  StableHlo.after_of_writes_sub hostOps2 _ hostOps2_writes h
theorem W9_of (c : Dev nD) (r : Ref sig .tc) (h : r ∉ hostOps2_1_W) : W9 m ρ c r = W8 m ρ c r :=
  StableHlo.after_of_writes_sub hostOps2_1 _ hostOps2_1_writes h
theorem W10_of (c : Dev nD) (r : Ref sig .tc) (h : r ∉ hostOps2_2_W) : W10 m ρ c r = W9 m ρ c r :=
  StableHlo.after_of_writes_sub hostOps2_2 _ hostOps2_2_writes h

/-- Region 0 leaves its two input arrays as it found them. -/
theorem W4_in0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem W4_in1 (c : Dev nD) : W4 m ρ c (Proc.devRef .tc main_arg3) = W3 m ρ c (Proc.devRef .tc main_arg3) :=
  (W4_arr m ρ c 1).trans (((dat0 (V3 m ρ) c).arrAt_in 1 rfl _).trans (A_eq0 (V3 m ρ) c 1))
/-- Region 1 leaves its weight matrix as it found it. -/
theorem W7_in1 (c : Dev nD) : W7 m ρ c (Proc.devRef .tc main_arg5) = W6 m ρ c (Proc.devRef .tc main_arg5) :=
  (W7_arr m ρ c 1).trans (((dat1 (V6 m ρ) c).arrAt_in 1 rfl _).trans (A_eq1 (V6 m ρ) c 1))
/-- Region 2 leaves its weight matrix and its bias as it found them. -/
theorem W11_in1 (c : Dev nD) : W11 m ρ c (Proc.devRef .tc main_arg7) = W10 m ρ c (Proc.devRef .tc main_arg7) :=
  (W11_arr m ρ c 1).trans (((dat2 (V10 m ρ) c).arrAt_in 1 rfl _).trans (A_eq2 (V10 m ρ) c 1))
theorem W11_in2 (c : Dev nD) : W11 m ρ c (Proc.devRef .tc main_arg8) = W10 m ρ c (Proc.devRef .tc main_arg8) :=
  (W11_arr m ρ c 2).trans (((dat2 (V10 m ρ) c).arrAt_in 2 rfl _).trans (A_eq2 (V10 m ρ) c 2))

/-! ## The proof data family and the thread state -/

/-- No pipeline has a prefetched table. -/
abbrev radm : (p : Fin 3) → (pcfgs (F := F) p).Adm := fun p => (cfgs p).toPCfg_adm
/-- Every pipeline's proof data, each at its region's entry contents. -/
def rdats : (p : Fin 3) → (c : Dev nD) → Dat τ (Elt F) Unit ℕ (UR sig nD τ) ℕ (Pipeline.pin (pcfgs (F := F)) radm p) c
  | ⟨0, _⟩ => fun c => dat0 (V3 m ρ) c
  | ⟨1, _⟩ => fun c => dat1 (V6 m ρ) c
  | ⟨2, _⟩ => fun c => dat2 (V10 m ρ) c
abbrev vr0 : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item: from the contents W to the stretch's fold of them, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (W11 m ρ c) ∗ ∃ r, prngReg c r)

/-! ## The regions as items -/

set_option backward.isDefEq.respectTransparency.types false in
/-- Region 0 over the thread state: entered from every unscoped buffer at W3, left at W4. Its arrays are split out of the
    unscoped buffers on entry and put back at what the pipeline left on exit; the generator register goes into the body's
    invariant and comes back; nothing is owed; the kernel has no semaphore of its own. -/
def reg0 : Pipeline.RegionSeg (pcfgs (F := F)) radm (rdats m ρ) () defs₀ vr0 Lz lvz 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ Lz lvz 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) radm (rdats m ρ) launch0.win launch0.arr_whole c
      ((rdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (rdats m ρ) ((rdats m ρ 0 c).share_full fun _ => rfl)
      (V3 m ρ c) (V4 m ρ c) ((rdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7, in the same way. -/
def reg1 : Pipeline.RegionSeg (pcfgs (F := F)) radm (rdats m ρ) () defs₀ vr0 Lz lvz 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ Lz lvz 1 fun _ _ => rfl
  pre c := iprop(StableHlo.held (c : Thread nD τ) (Pipeline.ucRefs τ sig) (W6 m ρ c) ∗ Rst c)
  post c := iprop(StableHlo.held (c : Thread nD τ) (Pipeline.ucRefs τ sig) (W7 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) radm (rdats m ρ) launch1.win launch1.arr_whole c
      ((rdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (rdats m ρ) ((rdats m ρ 1 c).share_full fun _ => rfl)
      (V6 m ρ c) (V7 m ρ c) ((rdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the last item: entered from every unscoped buffer at W10, left at W11 beside the core owing nothing. -/
def reg2 : Pipeline.RegionSeg (pcfgs (F := F)) radm (rdats m ρ) () defs₀ vr0 Lz lvz 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ Lz lvz 2 fun _ _ => rfl
  pre c := iprop(StableHlo.held (c : Thread nD τ) (Pipeline.ucRefs τ sig) (W10 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) radm (rdats m ρ) launch2.win launch2.arr_whole c
      ((rdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) radm (Ix := Unit) (Name := ℕ) (U := UR sig nD τ) (Lvl := ℕ)
      launch2.win launch2.arr_whole c (rdats m ρ) ((rdats m ρ 2 c).share_full fun _ => rfl)
      (V10 m ρ c) (V11 m ρ c) ((rdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eleven items in order. -/
abbrev rsegs : List (Pipeline.Seg (pcfgs (F := F)) radm (rdats m ρ) () defs₀ vr0 Lz lvz) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .region (reg2 m ρ) ]

/-- @main is the run of the items. -/
theorem main_run (c : Dev nD) : main (F := F) c = Pipeline.Seg.run (rsegs m ρ) := (main_chain c).trans (by chain_rfl)

set_option backward.isDefEq.respectTransparency.types false in
/-- THE RUN. From any memory with zero counters every weakly fair execution of @main terminates, nothing faulting, and
    in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) radm (rdats m ρ) () cellOf_inj emb₁ defs₀ vr0 Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-! ## An argument array is never written -/

/-- The nine argument arrays. -/
abbrev argRefs : List (Ref sig .tc) := [main_arg0, main_arg1, main_arg2, main_arg3, main_arg4, main_arg5, main_arg6, main_arg7, main_arg8]

theorem W3_arg (c : Dev nD) (r : Ref sig .tc) (hr : r ∈ argRefs) : W3 m ρ c r = W0 m ρ c r :=
  (W3_of m ρ c r ((by decide : ∀ r ∈ argRefs, r ∉ hostOps0_2_W) r hr)).trans
    ((W2_of m ρ c r ((by decide : ∀ r ∈ argRefs, r ∉ hostOps0_1_W) r hr)).trans
      (W1_of m ρ c r ((by decide : ∀ r ∈ argRefs, r ∉ hostOps0_W) r hr)))

theorem W4_arg (c : Dev nD) (r : Ref sig .tc) (hr : r ∈ argRefs) : W4 m ρ c (Proc.devRef .tc r) = W3 m ρ c (Proc.devRef .tc r) := by
  simp only [argRefs, List.mem_cons, List.not_mem_nil, or_false] at hr
  rcases hr with rfl | rfl | rfl | rfl | rfl | rfl | rfl | rfl | rfl
  · exact W4_in0 m ρ c
  · exact W4_of_ne m ρ c _ (by decide)
  · exact W4_of_ne m ρ c _ (by decide)
  · exact W4_in1 m ρ c
  · exact W4_of_ne m ρ c _ (by decide)
  · exact W4_of_ne m ρ c _ (by decide)
  · exact W4_of_ne m ρ c _ (by decide)
  · exact W4_of_ne m ρ c _ (by decide)
  · exact W4_of_ne m ρ c _ (by decide)

theorem W6_arg (c : Dev nD) (r : Ref sig .tc) (hr : r ∈ argRefs) : W6 m ρ c r = W0 m ρ c r :=
  (W6_of m ρ c r ((by decide : ∀ r ∈ argRefs, r ∉ hostOps1_1_W) r hr)).trans
    ((W5_of m ρ c r ((by decide : ∀ r ∈ argRefs, r ∉ hostOps1_W) r hr)).trans
      ((W4_arg m ρ c r hr).trans (W3_arg m ρ c r hr)))

theorem W7_arg (c : Dev nD) (r : Ref sig .tc) (hr : r ∈ argRefs) : W7 m ρ c (Proc.devRef .tc r) = W6 m ρ c (Proc.devRef .tc r) := by
  simp only [argRefs, List.mem_cons, List.not_mem_nil, or_false] at hr
  rcases hr with rfl | rfl | rfl | rfl | rfl | rfl | rfl | rfl | rfl
  · exact W7_of_ne m ρ c _ (by decide)
  · exact W7_of_ne m ρ c _ (by decide)
  · exact W7_of_ne m ρ c _ (by decide)
  · exact W7_of_ne m ρ c _ (by decide)
  · exact W7_of_ne m ρ c _ (by decide)
  · exact W7_in1 m ρ c
  · exact W7_of_ne m ρ c _ (by decide)
  · exact W7_of_ne m ρ c _ (by decide)
  · exact W7_of_ne m ρ c _ (by decide)

theorem W10_arg (c : Dev nD) (r : Ref sig .tc) (hr : r ∈ argRefs) : W10 m ρ c r = W0 m ρ c r :=
  (W10_of m ρ c r ((by decide : ∀ r ∈ argRefs, r ∉ hostOps2_2_W) r hr)).trans
    ((W9_of m ρ c r ((by decide : ∀ r ∈ argRefs, r ∉ hostOps2_1_W) r hr)).trans
      ((W8_of m ρ c r ((by decide : ∀ r ∈ argRefs, r ∉ hostOps2_W) r hr)).trans
        ((W7_arg m ρ c r hr).trans (W6_arg m ρ c r hr))))

theorem W9_arg (c : Dev nD) (r : Ref sig .tc) (hr : r ∈ argRefs) : W9 m ρ c r = W0 m ρ c r :=
  (W9_of m ρ c r ((by decide : ∀ r ∈ argRefs, r ∉ hostOps2_1_W) r hr)).trans
    ((W8_of m ρ c r ((by decide : ∀ r ∈ argRefs, r ∉ hostOps2_W) r hr)).trans
      ((W7_arg m ρ c r hr).trans (W6_arg m ρ c r hr)))

theorem W11_arg (c : Dev nD) (r : Ref sig .tc) (hr : r ∈ argRefs) : W11 m ρ c (Proc.devRef .tc r) = W0 m ρ c (Proc.devRef .tc r) := by
  refine Eq.trans ?_ (W10_arg m ρ c r hr)
  simp only [argRefs, List.mem_cons, List.not_mem_nil, or_false] at hr
  rcases hr with rfl | rfl | rfl | rfl | rfl | rfl | rfl | rfl | rfl
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_in1 m ρ c
  · exact W11_in2 m ρ c

/-! ## The frame -/

/-- Every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_arg m ρ c main_arg0 (by decide)),
     (h c _ (mem_uc main_arg1 (by decide))).trans (W11_arg m ρ c main_arg1 (by decide)),
     (h c _ (mem_uc main_arg2 (by decide))).trans (W11_arg m ρ c main_arg2 (by decide)),
     (h c _ (mem_uc main_arg3 (by decide))).trans (W11_arg m ρ c main_arg3 (by decide)),
     (h c _ (mem_uc main_arg4 (by decide))).trans (W11_arg m ρ c main_arg4 (by decide)),
     (h c _ (mem_uc main_arg5 (by decide))).trans (W11_arg m ρ c main_arg5 (by decide)),
     (h c _ (mem_uc main_arg6 (by decide))).trans (W11_arg m ρ c main_arg6 (by decide)),
     (h c _ (mem_uc main_arg7 (by decide))).trans (W11_arg m ρ c main_arg7 (by decide)),
     (h c _ (mem_uc main_arg8 (by decide))).trans (W11_arg m ρ c main_arg8 (by decide))⟩)
    (run_main m ρ)

end Cert.Kernel.Hand

end
-- ==== Proof.KiR0.lean ====
/-
  Region 0 of the program: the first dense layer's product. The grid has ten points; at point t the body is
  handed rows [5000·t, 5000·t + 5000) of the node features (a 5000×64 block), the whole 64×128 weight matrix,
  and the matching 5000×128 block of the result. It reads the two inputs whole, rounds them to bf16, multiplies
  them into a zero accumulator, and overwrites the result block whole (after a read of that block whose value is
  never used). So after the body the result block holds one function of the two input blocks, and the inputs'
  blocks are as they were. This module states that per point, at ANY contents V of the buffers on entry.
-/
import proofs.«122578_j27917287424795_1_alg».proof.Proof.Gen.KernelIdeal.Launch
import proofs.«122578_j27917287424795_1_alg».proof.Proof.Gen.KernelIdeal.Skeleton
import proofs.«122578_j27917287424795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's buffer holds the whole matrix at every point: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev rx0 : Rect S5000x64 := Rect.unit (s := S5000x64) ![0, 0] S5000x64.size inb_S5000x64_S5000x64_0_0
abbrev rw0 : Rect S64x128 := Rect.unit (s := S64x128) ![0, 0] S64x128.size inb_S64x128_S64x128_0_0
abbrev ro0 : Rect S5000x128 := Rect.unit (s := S5000x128) ![0, 0] S5000x128.size inb_S5000x128_S5000x128_0_0

/-- The result block after the body: its one whole store, of the product of the two input blocks. -/
def out0_2 (x0 : Vec F S5000x64 .f32) (x1 : Vec F S64x128 .f32) : Vec F S5000x128 .f32 :=
  View.canon [⟨ro0, k0_pay1 (View.ld x0 rx0) (View.ld x1 rw0)⟩]

/-- The one store covers the block. -/
theorem cover0_2 (p0 : Vec F S5000x128 .f32) (y : S5000x128.Idx) :
    ∃ pc ∈ ([⟨ro0, p0⟩] : List (View.Piece (Elt F) S5000x128 .f32)), y ∈ pc.1.set :=
  View.cover_of_tiled [⟨ro0, p0⟩] S5000x128.size (by rfl) y

set_option maxHeartbeats 1000000 in
/-- The body on whole buffers: inputs at x0, x1 and the result at anything; it returns with the inputs as they were
    and the result at the product of the inputs. -/
theorem sound_kernel0 (c : Dev nD) (E : Set ℕ) (i : grid0.Coords)
    (arg1 : Memref sig .tc .vmem S5000x64 .f32) (harg1 : arg1.IsWhole) (arg2 : Memref sig .tc .vmem S64x128 .f32) (harg2 : arg2.IsWhole)
    (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core c: the arrays as the region finds them; after the body each input's buffer
    at its block and the result's at the product of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/-
  Region 1 of the program: the second dense layer's product. Ten grid points; at point t the body is handed rows
  [5000·t, 5000·t + 5000) of the hidden features (a 5000×128 block), the whole 128×128 weight matrix, and the
  matching 5000×128 block of the result. It reads the two inputs whole, rounds them to bf16, multiplies them into a
  zero accumulator and overwrites the result block whole (after an unused read of it). Stated per point, at ANY
  contents V of the buffers on entry.
-/
import proofs.«122578_j27917287424795_1_alg».proof.Proof.Gen.KernelIdeal.Launch
import proofs.«122578_j27917287424795_1_alg».proof.Proof.Gen.KernelIdeal.Skeleton
import proofs.«122578_j27917287424795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden rows' buffer holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer holds the whole matrix at every point: fetched once, its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rx1 : Rect S5000x128 := Rect.unit (s := S5000x128) ![0, 0] S5000x128.size inb_S5000x128_S5000x128_0_0
abbrev rw1 : Rect S128x128 := Rect.unit (s := S128x128) ![0, 0] S128x128.size inb_S128x128_S128x128_0_0

/-- The result block after the body: its one whole store, of the product of the two input blocks. -/
def out1_2 (x0 : Vec F S5000x128 .f32) (x1 : Vec F S128x128 .f32) : Vec F S5000x128 .f32 :=
  View.canon [⟨rx1, k1_pay1 (View.ld x0 rx1) (View.ld x1 rw1)⟩]

/-- The one store covers the block. -/
theorem cover1_2 (p0 : Vec F S5000x128 .f32) (y : S5000x128.Idx) :
    ∃ pc ∈ ([⟨rx1, p0⟩] : List (View.Piece (Elt F) S5000x128 .f32)), y ∈ pc.1.set :=
  View.cover_of_tiled [⟨rx1, p0⟩] S5000x128.size (by rfl) y

set_option maxHeartbeats 1000000 in
/-- The body on whole buffers: inputs at x0, x1 and the result at anything; it returns with the inputs as they were
    and the result at the product of the inputs. -/
theorem sound_kernel1 (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core c: the arrays as the region finds them; after the body each input's buffer
    at its block and the result's at the product of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiR2.lean ====
/-
  Region 2 of the program: the edge layer. One hundred grid points; at point t the body is handed rows
  [8000·t, 8000·t + 8000) of the edge features (an 8000×272 block), the whole 272×32 weight matrix, the whole bias
  vector of 32 entries, and the matching 8000×32 block of the result. It reads the three inputs whole, rounds the
  two matrices to bf16, multiplies them into a zero accumulator, adds the bias to every row, and overwrites the
  result block whole (after an unused read of it). Stated per point, at ANY contents V of the buffers on entry.
-/
import proofs.«122578_j27917287424795_1_alg».proof.Proof.Gen.KernelIdeal.Launch
import proofs.«122578_j27917287424795_1_alg».proof.Proof.Gen.KernelIdeal.Skeleton
import proofs.«122578_j27917287424795_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge rows' buffer holds the point's block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's buffer holds the whole matrix at every point: fetched once, its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias vector's buffer holds the whole vector at every point: fetched once, its block never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rx2 : Rect S8000x272 := Rect.unit (s := S8000x272) ![0, 0] S8000x272.size inb_S8000x272_S8000x272_0_0
abbrev rw2 : Rect S272x32 := Rect.unit (s := S272x32) ![0, 0] S272x32.size inb_S272x32_S272x32_0_0
abbrev rb2 : Rect S32 := Rect.unit (s := S32) ![0] S32.size inb_S32_S32_0
abbrev ro2 : Rect S8000x32 := Rect.unit (s := S8000x32) ![0, 0] S8000x32.size inb_S8000x32_S8000x32_0_0

/-- The result block after the body: its one whole store, of the product of the two matrix blocks plus the bias. -/
def out2_3 (x0 : Vec F S8000x272 .f32) (x1 : Vec F S272x32 .f32) (x2 : Vec F S32 .f32) : Vec F S8000x32 .f32 :=
  View.canon [⟨ro2, k2_pay1 (View.ld x0 rx2) (View.ld x1 rw2) (View.ld x2 rb2)⟩]

/-- The one store covers the block. -/
theorem cover2_3 (p0 : Vec F S8000x32 .f32) (y : S8000x32.Idx) :
    ∃ pc ∈ ([⟨ro2, p0⟩] : List (View.Piece (Elt F) S8000x32 .f32)), y ∈ pc.1.set :=
  View.cover_of_tiled [⟨ro2, p0⟩] S8000x32.size (by rfl) y

set_option maxHeartbeats 1000000 in
/-- The body on whole buffers: inputs at x0, x1, x2 and the result at anything; it returns with the inputs as they
    were and the result at the product of the matrices plus the bias. -/
theorem sound_kernel2 (c : Dev nD) (E : Set ℕ) (i : grid2.Coords)
    (arg1 : Memref sig .tc .vmem S8000x272 .f32) (harg1 : arg1.IsWhole) (arg2 : Memref sig .tc .vmem S272x32 .f32) (harg2 : arg2.IsWhole)
    (arg3 : Memref sig .tc .vmem S32 .f32) (harg3 : arg3.IsWhole) (arg4 : Memref sig .tc .vmem S8000x32 .f32) (harg4 : arg4.IsWhole)
    (x0 : Vec F S8000x272 .f32) (x1 : Vec F S272x32 .f32) (x2 : Vec F S32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core c: the arrays as the region finds them; after the body each input's buffer
    at its block and the result's at the product plus the bias; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The whole program as a run. @main is eleven items in order: three stretches of host operations (the edge lists with
  their self loops, the degrees and their inverse square roots, the per-edge normalisation), region 0 (features times
  the first weight matrix), two stretches (gather, scale, scatter-add, bias; then the rectifier), region 1 (hidden
  features times the second weight matrix), two stretches of the same shape, one stretch that gathers both end points'
  rows and joins them with the edge attributes, and region 2 (edge features times the edge weights, plus bias).

  The contents of every unscoped buffer at the twelve boundaries are a fold from the launch memory: a host stretch maps
  the contents through its operations; a region replaces its arrays by what its pipeline leaves (an input array as it
  was, the result array the fold of its blocks' write-backs) and keeps every other buffer. Each region is entered from
  one boundary's contents and left at the next, so the items chain, and the run ends with every unscoped buffer at the
  last boundary's contents. From that: no item writes an argument array, so each ends as launched.
-/
import proofs.«122578_j27917287424795_1_alg».proof.Proof.KiR0
import proofs.«122578_j27917287424795_1_alg».proof.Proof.KiR1
import proofs.«122578_j27917287424795_1_alg».proof.Proof.KiR2
import proofs.«122578_j27917287424795_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first stretch: the edge lists with self loops, the degrees, their comparison with zero and inverse roots. -/
abbrev W1 : Dev nD → Valuation τ sig (Elt F) := fun c => StableHlo.after hostOps0 (W0 m ρ c)
/-- After the selection of the inverse roots where the degree is positive. -/
abbrev W2 : Dev nD → Valuation τ sig (Elt F) := fun c => StableHlo.after hostOps0_1 (W1 m ρ c)
/-- After the per-edge normalisation (region 0's entry). -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the first layer's aggregation and bias. -/
abbrev W5 : Dev nD → Valuation τ sig (Elt F) := fun c => StableHlo.after hostOps1 (W4 m ρ c)
/-- After the rectifier (region 1's entry). -/
abbrev W6 : Dev nD → Valuation τ sig (Elt F) := fun c => StableHlo.after hostOps1_1 (W5 m ρ c)
abbrev V6 : (c : Dev nD) → (b : Ref sig .tc) → Buf (Elt F) ((c : Thread nD τ).loc b) := fun c b => W6 m ρ c b
/-- At region 1's exit. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the second layer's aggregation and bias. -/
abbrev W8 : Dev nD → Valuation τ sig (Elt F) := fun c => StableHlo.after hostOps2 (W7 m ρ c)
/-- After the rectifier. -/
abbrev W9 : Dev nD → Valuation τ sig (Elt F) := fun c => StableHlo.after hostOps2_1 (W8 m ρ c)
/-- After the edge features are assembled (region 2's entry). -/
abbrev W10 : Dev nD → Valuation τ sig (Elt F) := fun c => StableHlo.after hostOps2_2 (W9 m ρ c)
abbrev V10 : (c : Dev nD) → (b : Ref sig .tc) → Buf (Elt F) ((c : Thread nD τ).loc b) := fun c b => W10 m ρ c b
/-- At region 2's exit: the end of @main. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

/-! ## What each item leaves unchanged -/

theorem W1_of (c : Dev nD) (r : Ref sig .tc) (h : r ∉ hostOps0_W) : W1 m ρ c r = W0 m ρ c r :=
  StableHlo.after_of_writes_sub hostOps0 _ hostOps0_writes h
theorem W2_of (c : Dev nD) (r : Ref sig .tc) (h : r ∉ hostOps0_1_W) : W2 m ρ c r = W1 m ρ c r :=
  StableHlo.after_of_writes_sub hostOps0_1 _ hostOps0_1_writes h
theorem W3_of (c : Dev nD) (r : Ref sig .tc) (h : r ∉ hostOps0_2_W) : W3 m ρ c r = W2 m ρ c r :=
  StableHlo.after_of_writes_sub hostOps0_2 _ hostOps0_2_writes h
theorem W5_of (c : Dev nD) (r : Ref sig .tc) (h : r ∉ hostOps1_W) : W5 m ρ c r = W4 m ρ c r :=
  StableHlo.after_of_writes_sub hostOps1 _ hostOps1_writes h
theorem W6_of (c : Dev nD) (r : Ref sig .tc) (h : r ∉ hostOps1_1_W) : W6 m ρ c r = W5 m ρ c r :=
  StableHlo.after_of_writes_sub hostOps1_1 _ hostOps1_1_writes h
theorem W8_of (c : Dev nD) (r : Ref sig .tc) (h : r ∉ hostOps2_W) : W8 m ρ c r = W7 m ρ c r :=
  StableHlo.after_of_writes_sub hostOps2 _ hostOps2_writes h
theorem W9_of (c : Dev nD) (r : Ref sig .tc) (h : r ∉ hostOps2_1_W) : W9 m ρ c r = W8 m ρ c r :=
  StableHlo.after_of_writes_sub hostOps2_1 _ hostOps2_1_writes h
theorem W10_of (c : Dev nD) (r : Ref sig .tc) (h : r ∉ hostOps2_2_W) : W10 m ρ c r = W9 m ρ c r :=
  StableHlo.after_of_writes_sub hostOps2_2 _ hostOps2_2_writes h

/-- Region 0 leaves its two input arrays as it found them. -/
theorem W4_in0 (c : Dev nD) : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem W4_in1 (c : Dev nD) : W4 m ρ c (Proc.devRef .tc main_arg3) = W3 m ρ c (Proc.devRef .tc main_arg3) :=
  (W4_arr m ρ c 1).trans (((dat0 (V3 m ρ) c).arrAt_in 1 rfl _).trans (A_eq0 (V3 m ρ) c 1))
/-- Region 1 leaves its weight matrix as it found it. -/
theorem W7_in1 (c : Dev nD) : W7 m ρ c (Proc.devRef .tc main_arg5) = W6 m ρ c (Proc.devRef .tc main_arg5) :=
  (W7_arr m ρ c 1).trans (((dat1 (V6 m ρ) c).arrAt_in 1 rfl _).trans (A_eq1 (V6 m ρ) c 1))
/-- Region 2 leaves its weight matrix and its bias as it found them. -/
theorem W11_in1 (c : Dev nD) : W11 m ρ c (Proc.devRef .tc main_arg7) = W10 m ρ c (Proc.devRef .tc main_arg7) :=
  (W11_arr m ρ c 1).trans (((dat2 (V10 m ρ) c).arrAt_in 1 rfl _).trans (A_eq2 (V10 m ρ) c 1))
theorem W11_in2 (c : Dev nD) : W11 m ρ c (Proc.devRef .tc main_arg8) = W10 m ρ c (Proc.devRef .tc main_arg8) :=
  (W11_arr m ρ c 2).trans (((dat2 (V10 m ρ) c).arrAt_in 2 rfl _).trans (A_eq2 (V10 m ρ) c 2))

/-! ## The proof data family and the thread state -/

/-- No pipeline has a prefetched table. -/
abbrev radm : (p : Fin 3) → (pcfgs (F := F) p).Adm := fun p => (cfgs p).toPCfg_adm
/-- Every pipeline's proof data, each at its region's entry contents. -/
def rdats : (p : Fin 3) → (c : Dev nD) → Dat τ (Elt F) Unit ℕ (UR sig nD τ) ℕ (Pipeline.pin (pcfgs (F := F)) radm p) c
  | ⟨0, _⟩ => fun c => dat0 (V3 m ρ) c
  | ⟨1, _⟩ => fun c => dat1 (V6 m ρ) c
  | ⟨2, _⟩ => fun c => dat2 (V10 m ρ) c
abbrev vr0 : Variants := Variants.none
/-- No core owes another anything: no level is assigned. -/
abbrev Lz : GSem nD τ sig → Finset Unit := fun _ => ∅
abbrev lvz : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
/-- A host stretch as an item: from the contents W to the stretch's fold of them, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vr0 Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tend (c : Dev nD) : sProp 𝕄 := iprop(StableHlo.held (c : Thread nD τ) (Pipeline.ucRefs τ sig) (W11 m ρ c) ∗ ∃ r, prngReg c r)

/-! ## The regions as items -/

set_option backward.isDefEq.respectTransparency.types false in
/-- Region 0 over the thread state: entered from every unscoped buffer at W3, left at W4. Its arrays are split out of the
    unscoped buffers on entry and put back at what the pipeline left on exit; the generator register goes into the body's
    invariant and comes back; nothing is owed; the kernel has no semaphore of its own. -/
def reg0 : Pipeline.RegionSeg (pcfgs (F := F)) radm (rdats m ρ) () defs₀ vr0 Lz lvz 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ Lz lvz 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) radm (rdats m ρ) launch0.win launch0.arr_whole c
      ((rdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (rdats m ρ) ((rdats m ρ 0 c).share_full fun _ => rfl)
      (V3 m ρ c) (V4 m ρ c) ((rdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7, in the same way. -/
def reg1 : Pipeline.RegionSeg (pcfgs (F := F)) radm (rdats m ρ) () defs₀ vr0 Lz lvz 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ Lz lvz 1 fun _ _ => rfl
  pre c := iprop(StableHlo.held (c : Thread nD τ) (Pipeline.ucRefs τ sig) (W6 m ρ c) ∗ Rst c)
  post c := iprop(StableHlo.held (c : Thread nD τ) (Pipeline.ucRefs τ sig) (W7 m ρ c) ∗ Rst c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) radm (rdats m ρ) launch1.win launch1.arr_whole c
      ((rdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (rdats m ρ) ((rdats m ρ 1 c).share_full fun _ => rfl)
      (V6 m ρ c) (V7 m ρ c) ((rdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2, the last item: entered from every unscoped buffer at W10, left at W11 beside the core owing nothing. -/
def reg2 : Pipeline.RegionSeg (pcfgs (F := F)) radm (rdats m ρ) () defs₀ vr0 Lz lvz 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ Lz lvz 2 fun _ _ => rfl
  pre c := iprop(StableHlo.held (c : Thread nD τ) (Pipeline.ucRefs τ sig) (W10 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) radm (rdats m ρ) launch2.win launch2.arr_whole c
      ((rdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) radm (Ix := Unit) (Name := ℕ) (U := UR sig nD τ) (Lvl := ℕ)
      launch2.win launch2.arr_whole c (rdats m ρ) ((rdats m ρ 2 c).share_full fun _ => rfl)
      (V10 m ρ c) (V11 m ρ c) ((rdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's eleven items in order. -/
abbrev rsegs : List (Pipeline.Seg (pcfgs (F := F)) radm (rdats m ρ) () defs₀ vr0 Lz lvz) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .region (reg1 m ρ),
    .host (hseg hostOps2 hostOps2_sub hostOps2_fresh (W7 m ρ)),
    .host (hseg hostOps2_1 hostOps2_1_sub hostOps2_1_fresh (W8 m ρ)),
    .host (hseg hostOps2_2 hostOps2_2_sub hostOps2_2_fresh (W9 m ρ)),
    .region (reg2 m ρ) ]

/-- @main is the run of the items. -/
theorem main_run (c : Dev nD) : main (F := F) c = Pipeline.Seg.run (rsegs m ρ) := (main_chain c).trans (by chain_rfl)

set_option backward.isDefEq.respectTransparency.types false in
/-- THE RUN. From any memory with zero counters every weakly fair execution of @main terminates, nothing faulting, and
    in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) radm (rdats m ρ) () cellOf_inj emb₁ defs₀ vr0 Lz lvz m ρ main (rsegs m ρ)
    (fun c Q => by rw [main_run m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-! ## An argument array is never written -/

/-- The nine argument arrays. -/
abbrev argRefs : List (Ref sig .tc) := [main_arg0, main_arg1, main_arg2, main_arg3, main_arg4, main_arg5, main_arg6, main_arg7, main_arg8]

theorem W3_arg (c : Dev nD) (r : Ref sig .tc) (hr : r ∈ argRefs) : W3 m ρ c r = W0 m ρ c r :=
  (W3_of m ρ c r ((by decide : ∀ r ∈ argRefs, r ∉ hostOps0_2_W) r hr)).trans
    ((W2_of m ρ c r ((by decide : ∀ r ∈ argRefs, r ∉ hostOps0_1_W) r hr)).trans
      (W1_of m ρ c r ((by decide : ∀ r ∈ argRefs, r ∉ hostOps0_W) r hr)))

theorem W4_arg (c : Dev nD) (r : Ref sig .tc) (hr : r ∈ argRefs) : W4 m ρ c (Proc.devRef .tc r) = W3 m ρ c (Proc.devRef .tc r) := by
  simp only [argRefs, List.mem_cons, List.not_mem_nil, or_false] at hr
  rcases hr with rfl | rfl | rfl | rfl | rfl | rfl | rfl | rfl | rfl
  · exact W4_in0 m ρ c
  · exact W4_of_ne m ρ c _ (by decide)
  · exact W4_of_ne m ρ c _ (by decide)
  · exact W4_in1 m ρ c
  · exact W4_of_ne m ρ c _ (by decide)
  · exact W4_of_ne m ρ c _ (by decide)
  · exact W4_of_ne m ρ c _ (by decide)
  · exact W4_of_ne m ρ c _ (by decide)
  · exact W4_of_ne m ρ c _ (by decide)

theorem W6_arg (c : Dev nD) (r : Ref sig .tc) (hr : r ∈ argRefs) : W6 m ρ c r = W0 m ρ c r :=
  (W6_of m ρ c r ((by decide : ∀ r ∈ argRefs, r ∉ hostOps1_1_W) r hr)).trans
    ((W5_of m ρ c r ((by decide : ∀ r ∈ argRefs, r ∉ hostOps1_W) r hr)).trans
      ((W4_arg m ρ c r hr).trans (W3_arg m ρ c r hr)))

theorem W7_arg (c : Dev nD) (r : Ref sig .tc) (hr : r ∈ argRefs) : W7 m ρ c (Proc.devRef .tc r) = W6 m ρ c (Proc.devRef .tc r) := by
  simp only [argRefs, List.mem_cons, List.not_mem_nil, or_false] at hr
  rcases hr with rfl | rfl | rfl | rfl | rfl | rfl | rfl | rfl | rfl
  · exact W7_of_ne m ρ c _ (by decide)
  · exact W7_of_ne m ρ c _ (by decide)
  · exact W7_of_ne m ρ c _ (by decide)
  · exact W7_of_ne m ρ c _ (by decide)
  · exact W7_of_ne m ρ c _ (by decide)
  · exact W7_in1 m ρ c
  · exact W7_of_ne m ρ c _ (by decide)
  · exact W7_of_ne m ρ c _ (by decide)
  · exact W7_of_ne m ρ c _ (by decide)

theorem W10_arg (c : Dev nD) (r : Ref sig .tc) (hr : r ∈ argRefs) : W10 m ρ c r = W0 m ρ c r :=
  (W10_of m ρ c r ((by decide : ∀ r ∈ argRefs, r ∉ hostOps2_2_W) r hr)).trans
    ((W9_of m ρ c r ((by decide : ∀ r ∈ argRefs, r ∉ hostOps2_1_W) r hr)).trans
      ((W8_of m ρ c r ((by decide : ∀ r ∈ argRefs, r ∉ hostOps2_W) r hr)).trans
        ((W7_arg m ρ c r hr).trans (W6_arg m ρ c r hr))))

theorem W9_arg (c : Dev nD) (r : Ref sig .tc) (hr : r ∈ argRefs) : W9 m ρ c r = W0 m ρ c r :=
  (W9_of m ρ c r ((by decide : ∀ r ∈ argRefs, r ∉ hostOps2_1_W) r hr)).trans
    ((W8_of m ρ c r ((by decide : ∀ r ∈ argRefs, r ∉ hostOps2_W) r hr)).trans
      ((W7_arg m ρ c r hr).trans (W6_arg m ρ c r hr)))

theorem W11_arg (c : Dev nD) (r : Ref sig .tc) (hr : r ∈ argRefs) : W11 m ρ c (Proc.devRef .tc r) = W0 m ρ c (Proc.devRef .tc r) := by
  refine Eq.trans ?_ (W10_arg m ρ c r hr)
  simp only [argRefs, List.mem_cons, List.not_mem_nil, or_false] at hr
  rcases hr with rfl | rfl | rfl | rfl | rfl | rfl | rfl | rfl | rfl
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_of_ne m ρ c _ (by decide)
  · exact W11_in1 m ρ c
  · exact W11_in2 m ρ c

/-! ## The frame -/

/-- Every weakly fair execution of @main terminates, nothing faulting, with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W11_arg m ρ c main_arg0 (by decide)),
     (h c _ (mem_uc main_arg1 (by decide))).trans (W11_arg m ρ c main_arg1 (by decide)),
     (h c _ (mem_uc main_arg2 (by decide))).trans (W11_arg m ρ c main_arg2 (by decide)),
     (h c _ (mem_uc main_arg3 (by decide))).trans (W11_arg m ρ c main_arg3 (by decide)),
     (h c _ (mem_uc main_arg4 (by decide))).trans (W11_arg m ρ c main_arg4 (by decide)),
     (h c _ (mem_uc main_arg5 (by decide))).trans (W11_arg m ρ c main_arg5 (by decide)),
     (h c _ (mem_uc main_arg6 (by decide))).trans (W11_arg m ρ c main_arg6 (by decide)),
     (h c _ (mem_uc main_arg7 (by decide))).trans (W11_arg m ρ c main_arg7 (by decide)),
     (h c _ (mem_uc main_arg8 (by decide))).trans (W11_arg m ρ c main_arg8 (by decide))⟩)
    (run_main m ρ)

end Cert.KernelIdeal.Hand

end
-- ==== Proof.KiChain.lean ====
/-
  The host side of the program as a handful of pure functions, in this program's own vocabulary: the edge lists with
  their self loops, the degrees and their inverse square roots, the per-edge normalisation, one layer's aggregation,
  the rectifier, and the assembly of the edge features. Each is, operation for operation, what the corresponding
  stretch of @main computes from the values it reads; nothing is proved here.
-/
import proofs.«122578_j27917287424795_1_alg».proof.Proof.Gen.KernelIdeal

noncomputable section

namespace Cert.KernelIdeal.Hand

open Cert.KernelIdeal Cert.KernelIdeal.Gen Idealize.ShloMosaic

variable {F : FTy → Type} [FloatOps F]

/-- An array of shape S and element type e, at the float values F. -/
abbrev Arr (S : Shape) (e : EltTy) : Type := (⟨S, e⟩ : BufTy).Contents (Elt F)

/-- The edges' sources followed by the fifty thousand self loops' nodes. -/
def rowOf (ei : Arr (F := F) S2x800000 .i32) : Arr (F := F) S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' targets followed by the self loops' nodes. -/
def colOf (ei : Arr (F := F) S2x800000 .i32) : Arr (F := F) S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of 850000 node numbers as a column of gather indices: a negative number has the node count added first. -/
def wrapL (r : Arr (F := F) S850000 .i32) : Arr (F := F) S850000x1 .i32 :=
  broadcastInDim S850000x1 ![0] bcast_S850000_S850000x1_0 (select (cmpi .slt r (broadcastInDim S850000 ![] bcast_S_S850000 (constantI S_ 32 0#32))) (addi r (broadcastInDim S850000 ![] bcast_S_S850000 (constantI S_ 32 50000#32))) r)

/-- Each node's degree: one added per listed target. -/
def degOf (col : Arr (F := F) S850000 .i32) : Arr (F := F) S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32))

/-- The degree's positivity and its inverse square root, the two values the selection below reads. -/
def degPos (deg : Arr (F := F) S50000 .f32) : Arr (F := F) S50000 .i1 :=
  cmpf (F := F) .ogt deg (broadcastInDim S50000 ![] bcast_S_S50000 (constant S_ .f32 0x00000000#32))
def degRsqrt (deg : Arr (F := F) S50000 .f32) : Arr (F := F) S50000 .f32 := Host.rsqrt deg

/-- The inverse square root of the degree where it is positive, zero elsewhere. -/
def dinvOf (pos : Arr (F := F) S50000 .i1) (rs : Arr (F := F) S50000 .f32) (z : Arr (F := F) S_ .f32) : Arr (F := F) S50000 .f32 :=
  select pos rs (broadcastInDim S50000 ![] bcast_S_S50000 (id z))

/-- Per listed edge, the product of its two end points' inverse roots. -/
def normOf (dinv : Arr (F := F) S50000 .f32) (row col : Arr (F := F) S850000 .i32) : Arr (F := F) S850000 .f32 :=
  mulf (Host.gather gather_S50000_S850000x1_S850000_n_0_n_n_0_1_1 dinv (wrapL row)) (Host.gather gather_S50000_S850000x1_S850000_n_0_n_n_0_1_1 dinv (wrapL col))

/-- One layer's aggregation: every listed edge's source row of h, scaled by the edge's normalisation, added into its
    target's row; then the bias added to every row. -/
def aggOf (h : Arr (F := F) S50000x128 .f32) (row col : Arr (F := F) S850000 .i32) (norm : Arr (F := F) S850000 .f32)
    (b : Arr (F := F) S128 .f32) : Arr (F := F) S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 col) (mulf (Host.gather gather_S50000x128_S850000x1_S850000x128_1_0_n_n_0_1_1128 h (wrapL row)) (broadcastInDim S850000x128 ![0, 1] bcast_S850000x1_S850000x128_0_1 (broadcastInDim S850000x1 ![0] bcast_S850000_S850000x1_0 norm)))) (broadcastInDim S50000x128 ![0, 1] bcast_S1x128_S50000x128_0_1 (broadcastInDim S1x128 ![1] bcast_S128_S1x128_1 b))

/-- The rectifier: the maximum with zero, entry by entry. -/
def reluOf (x : Arr (F := F) S50000x128 .f32) (z : Arr (F := F) S_ .f32) : Arr (F := F) S50000x128 .f32 :=
  maximumf x (broadcastInDim S50000x128 ![] bcast_S_S50000x128 z)

/-- The edges' sources and targets, without self loops. -/
def srcOf (ei : Arr (F := F) S2x800000 .i32) : Arr (F := F) S800000 .i32 :=
  shapeCast _ (extractStridedSlice S1x800000 ![0, 0] ei slices_S2x800000_S1x800000_0_0) shapeCasts_S1x800000_S800000
def dstOf (ei : Arr (F := F) S2x800000 .i32) : Arr (F := F) S800000 .i32 :=
  shapeCast _ (extractStridedSlice S1x800000 ![1, 0] ei slices_S2x800000_S1x800000_1_0) shapeCasts_S1x800000_S800000

/-- A list of 800000 node numbers as a column of gather indices, negative numbers wrapped as above. -/
def wrapE (r : Arr (F := F) S800000 .i32) : Arr (F := F) S800000x1 .i32 :=
  broadcastInDim S800000x1 ![0] bcast_S800000_S800000x1_0 (select (cmpi .slt r (broadcastInDim S800000 ![] bcast_S_S800000 (constantI S_ 32 0#32))) (addi r (broadcastInDim S800000 ![] bcast_S_S800000 (constantI S_ 32 50000#32))) r)

/-- Per edge: its source's row of h, its target's row of h, and its own attributes, side by side. -/
def featOf (h : Arr (F := F) S50000x128 .f32) (ei : Arr (F := F) S2x800000 .i32) (ea : Arr (F := F) S800000x16 .f32) :
    Arr (F := F) S800000x272 .f32 :=
  concatenate S800000x272 1 [⟨S800000x128, (Host.gather gather_S50000x128_S800000x1_S800000x128_1_0_n_n_0_1_1128 h (wrapE (srcOf ei)))⟩, ⟨S800000x128, (Host.gather gather_S50000x128_S800000x1_S800000x128_1_0_n_n_0_1_1128 h (wrapE (dstOf ei)))⟩, ⟨S800000x16, ea⟩] concatenates_S800000x128_S800000x128_S800000x16_S800000x272_d1

end Cert.KernelIdeal.Hand

end
-- ==== Proof.KiStretch.lean ====
/-
  Each stretch of host operations, read back: from ANY contents Vin of the buffers on entry, the one buffer a later item
  reads holds the corresponding pure function (KiChain) of the values the stretch read. Nothing here depends on which
  stretch or region ran before.
-/
import proofs.«122578_j27917287424795_1_alg».proof.Proof.Gen.KernelIdeal.Launch
import proofs.«122578_j27917287424795_1_alg».proof.Proof.KiChain
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F] (Vin : Valuation τ sig (Elt F))

set_option maxHeartbeats 8000000 in
/-- After the first stretch: the sources and the targets with their self loops, -/
theorem s0_row : (StableHlo.after hostOps0 Vin (Proc.devRef .tc main_v3) : Arr (F := F) S850000 .i32)
    = rowOf (Vin (Proc.devRef .tc main_arg1)) := by
  dsimp only [hostOps0]; after_results; all_goals rfl
set_option maxHeartbeats 8000000 in
theorem s0_col : (StableHlo.after hostOps0 Vin (Proc.devRef .tc main_v6) : Arr (F := F) S850000 .i32)
    = colOf (Vin (Proc.devRef .tc main_arg1)) := by
  dsimp only [hostOps0]; after_results; all_goals rfl
set_option maxHeartbeats 8000000 in
/-- the degree's positivity and inverse square root, and the zero the selection falls back to. -/
theorem s0_pos : (StableHlo.after hostOps0 Vin (Proc.devRef .tc main_v12) : Arr (F := F) S50000 .i1)
    = degPos (degOf (colOf (Vin (Proc.devRef .tc main_arg1)))) := by
  dsimp only [hostOps0]; after_results; all_goals rfl
set_option maxHeartbeats 8000000 in
theorem s0_rs : (StableHlo.after hostOps0 Vin (Proc.devRef .tc main_v13) : Arr (F := F) S50000 .f32)
    = degRsqrt (degOf (colOf (Vin (Proc.devRef .tc main_arg1)))) := by
  dsimp only [hostOps0]; after_results; all_goals rfl
set_option maxHeartbeats 8000000 in
theorem s0_zero : (StableHlo.after hostOps0 Vin (Proc.devRef .tc main_cst_2) : Arr (F := F) S_ .f32)
    = constant (F := F) S_ .f32 0x00000000#32 := by
  dsimp only [hostOps0]; after_results; all_goals rfl

set_option maxHeartbeats 8000000 in
/-- After the selection: the inverse roots where the degree is positive. -/
theorem s01_dinv : (StableHlo.after hostOps0_1 Vin (Proc.devRef .tc main_v14) : Arr (F := F) S50000 .f32)
    = dinvOf (Vin (Proc.devRef .tc main_v12)) (Vin (Proc.devRef .tc main_v13)) (Vin (Proc.devRef .tc main_cst_2)) := by
  dsimp only [hostOps0_1]; after_results; all_goals rfl

set_option maxHeartbeats 8000000 in
/-- After the third stretch: the per-edge normalisation. -/
theorem s02_norm : (StableHlo.after hostOps0_2 Vin (Proc.devRef .tc main_v29) : Arr (F := F) S850000 .f32)
    = normOf (Vin (Proc.devRef .tc main_v14)) (Vin (Proc.devRef .tc main_v3)) (Vin (Proc.devRef .tc main_v6)) := by
  dsimp only [hostOps0_2]; after_results; all_goals rfl

set_option maxHeartbeats 8000000 in
/-- After the first layer's aggregation and bias, -/
theorem s1_agg : (StableHlo.after hostOps1 Vin (Proc.devRef .tc main_v46) : Arr (F := F) S50000x128 .f32)
    = aggOf (Vin (Proc.devRef .tc main_v30)) (Vin (Proc.devRef .tc main_v3)) (Vin (Proc.devRef .tc main_v6))
        (Vin (Proc.devRef .tc main_v29)) (Vin (Proc.devRef .tc main_arg4)) := by
  dsimp only [hostOps1]; after_results; all_goals rfl
set_option maxHeartbeats 8000000 in
/-- and its rectifier. -/
theorem s11_relu : (StableHlo.after hostOps1_1 Vin (Proc.devRef .tc main_v47) : Arr (F := F) S50000x128 .f32)
    = reluOf (Vin (Proc.devRef .tc main_v46)) (constant (F := F) S_ .f32 0x00000000#32) := by
  dsimp only [hostOps1_1]; after_results; all_goals rfl

set_option maxHeartbeats 8000000 in
/-- After the second layer's aggregation and bias, -/
theorem s2_agg : (StableHlo.after hostOps2 Vin (Proc.devRef .tc main_v64) : Arr (F := F) S50000x128 .f32)
    = aggOf (Vin (Proc.devRef .tc main_v48)) (Vin (Proc.devRef .tc main_v3)) (Vin (Proc.devRef .tc main_v6))
        (Vin (Proc.devRef .tc main_v29)) (Vin (Proc.devRef .tc main_arg6)) := by
  dsimp only [hostOps2]; after_results; all_goals rfl
set_option maxHeartbeats 8000000 in
/-- and its rectifier. -/
theorem s21_relu : (StableHlo.after hostOps2_1 Vin (Proc.devRef .tc main_v65) : Arr (F := F) S50000x128 .f32)
    = reluOf (Vin (Proc.devRef .tc main_v64)) (constant (F := F) S_ .f32 0x00000000#32) := by
  dsimp only [hostOps2_1]; after_results; all_goals rfl

set_option maxHeartbeats 8000000 in
/-- After the last stretch: the edge features. -/
theorem s22_feat : (StableHlo.after hostOps2_2 Vin (Proc.devRef .tc main_v84) : Arr (F := F) S800000x272 .f32)
    = featOf (Vin (Proc.devRef .tc main_v65)) (Vin (Proc.devRef .tc main_arg1)) (Vin (Proc.devRef .tc main_arg2)) := by
  dsimp only [hostOps2_2]; after_results; all_goals rfl

end Cert.KernelIdeal.Hand

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.KiVal0.lean ====
/-
  Region 0's result array at the ideal values. Point t of the grid writes back rows [5000·t, 5000·t + 5000) of the
  result; entry (p, q) of that block is the sum over k of (row p of the feature block)·(column q of the weights), and row p
  of the feature block is row 5000·t + p of the feature array. So every entry (P, q) of the result array is
  ∑ k, x[P, k] · w[k, q]: the host's plain matrix product of the two arrays. The ten blocks tile the 50000 rows.
-/
import proofs.«122578_j27917287424795_1_alg».proof.Proof.KiR0
import proofs.«122578_j27917287424795_1_alg».proof.Proof.LibPlainMatmul
import proofs.«122578_j27917287424795_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The host's plain product of a 50000×64 array with a 64×128 one. -/
def prod0 (x : FVec Ideal S50000x64 .f32) (w : FVec Ideal S64x128 .f32) : FVec Ideal S50000x128 .f32 :=
  Host.dotGeneral (F := Ideal) (φ₁ := .f32) (φ₂ := .f32) Cert.ReferenceIdeal.dot_S50000x64_S64x128_S50000x128_1_0_0_1_n_n none x w

/-- Its entry (P, q) is the sum over k of x[P, k] · w[k, q]. -/
theorem prod0_apply (x : FVec Ideal S50000x64 .f32) (w : FVec Ideal S64x128 .f32) (P : Fin 50000) (q : Fin 128) :
    prod0 x w (ix2 P q) = ∑ k : Fin 64, x (ix2 P k) * w (ix2 k q) := by
  unfold prod0
  simp only [Host.dotGeneral]
  exact Cert.Lib.PlainMatmul.dotGeneral_plain_apply _ rfl rfl rfl rfl rfl rfl none _ x w P q

/-- The body's product at entry (p, q) of the block: the sum over k of x0[p, k] · x1[k, q] (rounding to bf16 is the
    identity at the ideal values; the accumulator starts at zero). -/
theorem pay0_apply (x0 : Vec Ideal S5000x64 .f32) (x1 : Vec Ideal S64x128 .f32) (p : Fin 5000) (q : Fin 128) :
    k0_pay1 (F := Ideal) x0 x1 (ix2 p q) = ∑ k : Fin 64, x0 (ix2 p k) * x1 (ix2 k q) := by
  unfold k0_pay1
  refine (Ideal.matmul_constant_zero_apply _ none _ _ (ix2 p q)).trans ?_
  exact Cert.Lib.PlainMatmul.contraction_apply dot_S5000x64_S64x128_S5000x128_1_0_0_1_n_n rfl rfl rfl rfl rfl rfl _ _ p q

/-- The index maps over the grid: the feature and result windows move one block of rows per point; the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt0 (t : Fin cfg0.N) : t.val < 10 := lt_of_lt_of_eq t.isLt N_0

/-- Row p of the feature block at point t is row 5000·t + p of the feature array. -/
theorem blk0_0_apply (c : Dev nD) (t : Fin cfg0.N) (p : Fin 5000) (k : Fin 64) :
    iblk0 V c 0 t (ix2 p k) = (V c main_arg0 : S50000x64.Idx → EReal) (ix2 ⟨t.val * 5000 + p.val, by have := t_lt0 t; omega⟩ k) := by
  unfold iblk0
  show (V c main_arg0 : S50000x64.Idx → EReal) (((cfg0.win 0).blk t).view.emb (ix2 p k)) = _
  refine congrArg _ ?_
  obtain ⟨e0, e1, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The weight block at any point is the weight array. -/
theorem blk0_1_apply (c : Dev nD) (t : Fin cfg0.N) (k : Fin 64) (q : Fin 128) :
    iblk0 V c 1 t (ix2 k q) = (V c main_arg3 : S64x128.Idx → EReal) (ix2 k q) := by
  unfold iblk0
  show (V c main_arg3 : S64x128.Idx → EReal) (((cfg0.win 1).blk t).view.emb (ix2 k q)) = _
  refine congrArg _ ?_
  obtain ⟨-, -, e2, e3, -⟩ := idx_facts0 t
  funext a; apply Fin.ext
  match a with
  | ⟨0, _⟩ => show win0_1.index t (0 : Fin 2) * 64 + 1 * k.val = k.val; omega
  | ⟨1, _⟩ => show win0_1.index t (1 : Fin 2) * 128 + 1 * q.val = q.val; omega

/-- Entry (p, q) of the result block at point t is entry (5000·t + p, q) of the result array. -/
theorem emb0_2 (t : Fin cfg0.N) (p : Fin 5000) (q : Fin 128) :
    ((cfg0.win 2).blk t).view.emb (ix2 p q) = (ix2 ⟨t.val * 5000 + p.val, by have := t_lt0 t; omega⟩ q : S50000x128.Idx) := by
  obtain ⟨-, -, -, -, e4, e5⟩ := idx_facts0 t
  funext a; apply Fin.ext
  match a with
  | ⟨0, _⟩ => show win0_2.index t (0 : Fin 2) * 5000 + 1 * p.val = t.val * 5000 + p.val; omega
  | ⟨1, _⟩ => show win0_2.index t (1 : Fin 2) * 128 + 1 * q.val = q.val; omega

/-- WHAT POINT t WRITES BACK is block t of the product of the two arrays as the region finds them. -/
theorem flushed0_eq (c : Dev nD) (t : Fin cfg0.N) :
    (dat0 V c).flushed 2 t = ((cfg0.win 2).blk t).view.read (Elt Ideal) (prod0 (V c main_arg0) (V c main_arg3)) := by
  show (cfg0.win 2).cut (grid0.coords t) ((dat0 V c).after 2 t) = _
  rw [after0_2]
  unfold out0_2
  rw [View.canon_unit_zero hz2]
  simp only [View.ld_unit_zero (S := S5000x64) hz2, View.ld_unit_zero (S := S64x128) hz2]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = prod0 (V c main_arg0) (V c main_arg3) (((cfg0.win 2).blk t).view.emb (ix2 p q))
  rw [emb0_2 t p q, prod0_apply, pay0_apply]
  refine Finset.sum_congr rfl fun k _ => ?_
  rw [blk0_0_apply V c t p k, blk0_1_apply V c t k q]

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- THE RESULT ARRAY after the region: the product of the two arrays the region found. -/
theorem final0 (c : Dev nD) : (dat0 V c).arrAt 2 cfg0.N = prod0 (V c main_arg0) (V c main_arg3) :=
  (dat0 V c).arrAt_eq_of_cover 2 (prod0 (V c main_arg0) (V c main_arg3)) (fun t _ => flushed0_eq V c t) fun i => by
    have hi0 : (i 0).val < 50000 := (i 0).isLt
    have hi1 : (i 1).val < 128 := (i 1).isLt
    let t : Fin cfg0.N := ⟨(i 0).val / 5000, by have hN : cfg0.N = 10 := N_0; omega⟩
    obtain ⟨-, -, -, -, e4, e5⟩ := idx_facts0 t
    have ht : t.val = (i 0).val / 5000 := rfl
    refine ⟨t, flush0_2 t, ?_⟩
    rw [mem_blk0]
    intro a
    match a with
    | ⟨0, _⟩ => show win0_2.index t (0 : Fin 2) * 5000 ≤ (i 0).val ∧ (i 0).val < win0_2.index t (0 : Fin 2) * 5000 + 5000; omega
    | ⟨1, _⟩ => show win0_2.index t (1 : Fin 2) * 128 ≤ (i 1).val ∧ (i 1).val < win0_2.index t (1 : Fin 2) * 128 + 128; omega

end Cert.KernelIdeal.Hand

end
-- ==== Proof.KiVal1.lean ====
/-
  Region 1's result array at the ideal values. Point t writes back rows [5000·t, 5000·t + 5000) of the result; entry
  (p, q) of that block is the sum over k of (row p of the hidden block)·(column q of the weights), row p of the hidden
  block being row 5000·t + p of the hidden array (the reshape in the body keeps the shape: the identity). So every entry
  (P, q) of the result array is ∑ k, h[P, k] · w[k, q]: the host's plain product. The ten blocks tile the 50000 rows.
-/
import proofs.«122578_j27917287424795_1_alg».proof.Proof.KiR1
import proofs.«122578_j27917287424795_1_alg».proof.Proof.LibPlainMatmul
import proofs.«122578_j27917287424795_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2' : (![0, 0] : Fin 2 → Nat) = fun _ => 0 := funext fun a => by fin_cases a <;> rfl

/-- The host's plain product of a 50000×128 array with a 128×128 one. -/
def prod1 (x : FVec Ideal S50000x128 .f32) (w : FVec Ideal S128x128 .f32) : FVec Ideal S50000x128 .f32 :=
  Host.dotGeneral (F := Ideal) (φ₁ := .f32) (φ₂ := .f32) Cert.ReferenceIdeal.dot_S50000x128_S128x128_S50000x128_1_0_0_1_n_n none x w

/-- Its entry (P, q) is the sum over k of x[P, k] · w[k, q]. -/
theorem prod1_apply (x : FVec Ideal S50000x128 .f32) (w : FVec Ideal S128x128 .f32) (P : Fin 50000) (q : Fin 128) :
    prod1 x w (ix2 P q) = ∑ k : Fin 128, x (ix2 P k) * w (ix2 k q) := by
  unfold prod1
  simp only [Host.dotGeneral]
  exact Cert.Lib.PlainMatmul.dotGeneral_plain_apply _ rfl rfl rfl rfl rfl rfl none _ x w P q

/-- The body's product at entry (p, q) of the block. -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  refine (Ideal.matmul_constant_zero_apply _ none _ _ (ix2 p q)).trans ?_
  refine (Cert.Lib.PlainMatmul.contraction_apply dot_S5000x128_S128x128_S5000x128_1_0_0_1_n_n rfl rfl rfl rfl rfl rfl _ _ p q).trans ?_
  rw [shapeCast_self]
  rfl

/-- The index maps over the grid: the hidden and result windows move one block of rows per point; the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem t_lt1 (t : Fin cfg1.N) : t.val < 10 := lt_of_lt_of_eq t.isLt N_1

/-- Row p of the hidden block at point t is row 5000·t + p of the hidden array. -/
theorem blk1_0_apply (c : Dev nD) (t : Fin cfg1.N) (p : Fin 5000) (k : Fin 128) :
    iblk1 V c 0 t (ix2 p k) = (V c main_v47 : S50000x128.Idx → EReal) (ix2 ⟨t.val * 5000 + p.val, by have := t_lt1 t; omega⟩ k) := by
  unfold iblk1
  show (V c main_v47 : S50000x128.Idx → EReal) (((cfg1.win 0).blk t).view.emb (ix2 p k)) = _
  refine congrArg _ ?_
  obtain ⟨e0, e1, -⟩ := idx_facts1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight block at any point is the weight array. -/
theorem blk1_1_apply (c : Dev nD) (t : Fin cfg1.N) (k : Fin 128) (q : Fin 128) :
    iblk1 V c 1 t (ix2 k q) = (V c main_arg5 : S128x128.Idx → EReal) (ix2 k q) := by
  unfold iblk1
  show (V c main_arg5 : S128x128.Idx → EReal) (((cfg1.win 1).blk t).view.emb (ix2 k q)) = _
  refine congrArg _ ?_
  obtain ⟨-, -, e2, e3, -⟩ := idx_facts1 t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Entry (p, q) of the result block at point t is entry (5000·t + p, q) of the result array. -/
theorem emb1_2 (t : Fin cfg1.N) (p : Fin 5000) (q : Fin 128) :
    ((cfg1.win 2).blk t).view.emb (ix2 p q) = (ix2 ⟨t.val * 5000 + p.val, by have := t_lt1 t; omega⟩ q : S50000x128.Idx) := by
  obtain ⟨-, -, -, -, e4, e5⟩ := idx_facts1 t
  funext a; apply Fin.ext
  match a with
  | ⟨0, _⟩ => show win1_2.index t (0 : Fin 2) * 5000 + 1 * p.val = t.val * 5000 + p.val; omega
  | ⟨1, _⟩ => show win1_2.index t (1 : Fin 2) * 128 + 1 * q.val = q.val; omega

/-- WHAT POINT t WRITES BACK is block t of the product of the two arrays as the region finds them. -/
theorem flushed1_eq (c : Dev nD) (t : Fin cfg1.N) :
    (dat1 V c).flushed 2 t = ((cfg1.win 2).blk t).view.read (Elt Ideal) (prod1 (V c main_v47) (V c main_arg5)) := by
  show (cfg1.win 2).cut (grid1.coords t) ((dat1 V c).after 2 t) = _
  rw [after1_2]
  unfold out1_2
  rw [View.canon_unit_zero hz2']
  simp only [View.ld_unit_zero (S := S5000x128) hz2', View.ld_unit_zero (S := S128x128) hz2']
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q) = prod1 (V c main_v47) (V c main_arg5) (((cfg1.win 2).blk t).view.emb (ix2 p q))
  rw [emb1_2 t p q, prod1_apply, pay1_apply]
  refine Finset.sum_congr rfl fun k _ => ?_
  rw [blk1_0_apply V c t p k, blk1_1_apply V c t k q]

/-- An index of the result array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- THE RESULT ARRAY after the region: the product of the two arrays the region found. -/
theorem final1 (c : Dev nD) : (dat1 V c).arrAt 2 cfg1.N = prod1 (V c main_v47) (V c main_arg5) :=
  (dat1 V c).arrAt_eq_of_cover 2 (prod1 (V c main_v47) (V c main_arg5)) (fun t _ => flushed1_eq V c t) fun i => by
    have hi0 : (i 0).val < 50000 := (i 0).isLt
    have hi1 : (i 1).val < 128 := (i 1).isLt
    let t : Fin cfg1.N := ⟨(i 0).val / 5000, by have hN : cfg1.N = 10 := N_1; omega⟩
    obtain ⟨-, -, -, -, e4, e5⟩ := idx_facts1 t
    have ht : t.val = (i 0).val / 5000 := rfl
    refine ⟨t, flush1_2 t, ?_⟩
    rw [mem_blk1]
    intro a
    match a with
    | ⟨0, _⟩ => show win1_2.index t (0 : Fin 2) * 5000 ≤ (i 0).val ∧ (i 0).val < win1_2.index t (0 : Fin 2) * 5000 + 5000; omega
    | ⟨1, _⟩ => show win1_2.index t (1 : Fin 2) * 128 ≤ (i 1).val ∧ (i 1).val < win1_2.index t (1 : Fin 2) * 128 + 128; omega

end Cert.KernelIdeal.Hand

end
-- ==== Proof.KiVal2.lean ====
/-
  Region 2's result array at the ideal values. Point t writes back rows [8000·t, 8000·t + 8000) of the result; entry
  (p, q) of that block is the sum over k of (row p of the edge-feature block)·(column q of the weights) plus entry q of
  the bias (the bias vector is laid out as one row and repeated down the block), row p of the block being row
  8000·t + p of the edge-feature array. So every entry (P, q) of the result array is ∑ k, e[P, k] · w[k, q] + b[q]: the
  host's plain product plus the bias repeated down the rows. The hundred blocks tile the 800000 rows.
-/
import proofs.«122578_j27917287424795_1_alg».proof.Proof.KiR2
import proofs.«122578_j27917287424795_1_alg».proof.Proof.LibPlainMatmul
import proofs.«122578_j27917287424795_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2'' : (![0, 0] : Fin 2 → Nat) = fun _ => 0 := funext fun a => by fin_cases a <;> rfl
theorem hz1 : (![0] : Fin 1 → Nat) = fun _ => 0 := funext fun a => by fin_cases a; rfl

/-- The host's plain product of an 800000×272 array with a 272×32 one, plus a bias of 32 entries repeated down the rows. -/
def prod2 (e : FVec Ideal S800000x272 .f32) (w : FVec Ideal S272x32 .f32) (b : FVec Ideal S32 .f32) : FVec Ideal S800000x32 .f32 :=
  addf (Host.dotGeneral (F := Ideal) (φ₁ := .f32) (φ₂ := .f32) Cert.ReferenceIdeal.dot_S800000x272_S272x32_S800000x32_1_0_0_1_n_n none e w)
    (broadcastInDim Cert.ReferenceIdeal.S800000x32 ![0, 1] Cert.ReferenceIdeal.Gen.bcast_S1x32_S800000x32_0_1
      (broadcastInDim Cert.ReferenceIdeal.S1x32 ![1] Cert.ReferenceIdeal.Gen.bcast_S32_S1x32_1 b))

/-- Its entry (P, q) is the sum over k of e[P, k] · w[k, q], plus b[q]. -/
theorem prod2_apply (e : FVec Ideal S800000x272 .f32) (w : FVec Ideal S272x32 .f32) (b : FVec Ideal S32 .f32) (P : Fin 800000) (q : Fin 32) :
    prod2 e w b (ix2 P q) = (∑ k : Fin 272, e (ix2 P k) * w (ix2 k q)) + b (ix1 q) := by
  unfold prod2
  refine (addf_apply _ _ (ix2 P q)).trans ?_
  refine congrArg₂ (· + ·) ?_ ?_
  · simp only [Host.dotGeneral]
    exact Cert.Lib.PlainMatmul.dotGeneral_plain_apply _ rfl rfl rfl rfl rfl rfl none _ e w P q
  · refine (broadcastInDim_apply ![0, 1] _ _ (ix2 P q) (ix2 (0 : Fin 1) q) (fun a => by
      match a with
      | ⟨0, _⟩ => rfl
      | ⟨1, _⟩ => rfl)).trans ?_
    exact broadcastInDim_apply ![1] _ b (ix2 (0 : Fin 1) q) (ix1 q) (fun a => by
      match a with
      | ⟨0, _⟩ => rfl)

/-- The body's result at entry (p, q) of the block: the product's entry plus the bias's. -/
theorem pay2_apply (x0 : Vec Ideal S8000x272 .f32) (x1 : Vec Ideal S272x32 .f32) (x2 : Vec Ideal S32 .f32) (p : Fin 8000) (q : Fin 32) :
    k2_pay1 (F := Ideal) x0 x1 x2 (ix2 p q) = (∑ k : Fin 272, x0 (ix2 p k) * x1 (ix2 k q)) + x2 (ix1 q) := by
  unfold k2_pay1
  refine (addf_apply _ _ (ix2 p q)).trans ?_
  refine congrArg₂ (· + ·) ?_ ?_
  · refine (Ideal.matmul_constant_zero_apply _ none _ _ (ix2 p q)).trans ?_
    refine (Cert.Lib.PlainMatmul.contraction_apply dot_S8000x272_S272x32_S8000x32_1_0_0_1_n_n rfl rfl rfl rfl rfl rfl _ _ p q).trans ?_
    rw [shapeCast_self]
    rfl
  · refine (broadcastTo_apply _ _ (ix2 p q) (ix2 (0 : Fin 1) q) (fun a => by
      match a with
      | ⟨0, _⟩ => rfl
      | ⟨1, _⟩ => rfl)).trans ?_
    refine (shapeCast_addUnit_apply (n := 1) ![32] x2 _ (ix2 (0 : Fin 1) q)).trans ?_
    exact congrArg x2 (funext fun a => by match a with | ⟨0, _⟩ => rfl)

/-- The index maps over the grid: the edge-feature and result windows move one block of rows per point; the weights and
    the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem t_lt2 (t : Fin cfg2.N) : t.val < 100 := lt_of_lt_of_eq t.isLt N_2

/-- Row p of the edge-feature block at point t is row 8000·t + p of the edge-feature array. -/
theorem blk2_0_apply (c : Dev nD) (t : Fin cfg2.N) (p : Fin 8000) (k : Fin 272) :
    iblk2 V c 0 t (ix2 p k) = (V c main_v84 : S800000x272.Idx → EReal) (ix2 ⟨t.val * 8000 + p.val, by have := t_lt2 t; omega⟩ k) := by
  unfold iblk2
  show (V c main_v84 : S800000x272.Idx → EReal) (((cfg2.win 0).blk t).view.emb (ix2 p k)) = _
  refine congrArg _ ?_
  obtain ⟨e0, e1, -⟩ := idx_facts2 t
  funext a; apply Fin.ext
  match a with
  | ⟨0, _⟩ => show win2_0.index t (0 : Fin 2) * 8000 + 1 * p.val = t.val * 8000 + p.val; omega
  | ⟨1, _⟩ => show win2_0.index t (1 : Fin 2) * 272 + 1 * k.val = k.val; omega

/-- The weight block at any point is the weight array. -/
theorem blk2_1_apply (c : Dev nD) (t : Fin cfg2.N) (k : Fin 272) (q : Fin 32) :
    iblk2 V c 1 t (ix2 k q) = (V c main_arg7 : S272x32.Idx → EReal) (ix2 k q) := by
  unfold iblk2
  show (V c main_arg7 : S272x32.Idx → EReal) (((cfg2.win 1).blk t).view.emb (ix2 k q)) = _
  refine congrArg _ ?_
  obtain ⟨-, -, e2, e3, -⟩ := idx_facts2 t
  funext a; apply Fin.ext
  match a with
  | ⟨0, _⟩ => show win2_1.index t (0 : Fin 2) * 272 + 1 * k.val = k.val; omega
  | ⟨1, _⟩ => show win2_1.index t (1 : Fin 2) * 32 + 1 * q.val = q.val; omega

/-- The bias block at any point is the bias array. -/
theorem blk2_2_apply (c : Dev nD) (t : Fin cfg2.N) (q : Fin 32) :
    iblk2 V c 2 t (ix1 q) = (V c main_arg8 : S32.Idx → EReal) (ix1 q) := by
  unfold iblk2
  show (V c main_arg8 : S32.Idx → EReal) (((cfg2.win 2).blk t).view.emb (ix1 q)) = _
  refine congrArg _ ?_
  obtain ⟨-, -, -, -, e4, -⟩ := idx_facts2 t
  funext a; apply Fin.ext
  match a with
  | ⟨0, _⟩ => show win2_2.index t (0 : Fin 1) * 32 + 1 * q.val = q.val; omega

/-- Entry (p, q) of the result block at point t is entry (8000·t + p, q) of the result array. -/
theorem emb2_3 (t : Fin cfg2.N) (p : Fin 8000) (q : Fin 32) :
    ((cfg2.win 3).blk t).view.emb (ix2 p q) = (ix2 ⟨t.val * 8000 + p.val, by have := t_lt2 t; omega⟩ q : S800000x32.Idx) := by
  obtain ⟨-, -, -, -, -, e5, e6⟩ := idx_facts2 t
  funext a; apply Fin.ext
  match a with
  | ⟨0, _⟩ => show win2_3.index t (0 : Fin 2) * 8000 + 1 * p.val = t.val * 8000 + p.val; omega
  | ⟨1, _⟩ => show win2_3.index t (1 : Fin 2) * 32 + 1 * q.val = q.val; omega

/-- WHAT POINT t WRITES BACK is block t of the product plus bias of the three arrays as the region finds them. -/
theorem flushed2_eq (c : Dev nD) (t : Fin cfg2.N) :
    (dat2 V c).flushed 3 t = ((cfg2.win 3).blk t).view.read (Elt Ideal) (prod2 (V c main_v84) (V c main_arg7) (V c main_arg8)) := by
  show (cfg2.win 3).cut (grid2.coords t) ((dat2 V c).after 3 t) = _
  rw [after2_3]
  unfold out2_3
  rw [View.canon_unit_zero hz2'']
  simp only [View.ld_unit_zero (S := S8000x272) hz2'', View.ld_unit_zero (S := S272x32) hz2'', View.ld_unit_zero (S := S32) hz1]
  funext j
  obtain ⟨p, q, rfl⟩ : ∃ (p : Fin 8000) (q : Fin 32), j = ix2 p q := ⟨j 0, j 1, eq_ix2 j⟩
  show k2_pay1 (F := Ideal) (iblk2 V c 0 t) (iblk2 V c 1 t) (iblk2 V c 2 t) (ix2 p q)
    = prod2 (V c main_v84) (V c main_arg7) (V c main_arg8) (((cfg2.win 3).blk t).view.emb (ix2 p q))
  rw [emb2_3 t p q, prod2_apply, pay2_apply, blk2_2_apply V c t q]
  refine congrArg (· + _) ?_
  refine Finset.sum_congr rfl fun k _ => ?_
  rw [blk2_0_apply V c t p k, blk2_1_apply V c t k q]

/-- An index of the result array is in point t's block iff each coordinate is in the block's range on its axis. -/
theorem mem_blk2 (t : Fin cfg2.N) (i : S800000x32.Idx) :
    i ∈ ((cfg2.win 3).blk t).view.set ↔ ∀ a : Fin 2, win2_3.index t a * S8000x32.size a ≤ (i a).val ∧ (i a).val < win2_3.index t a * S8000x32.size a + S8000x32.size a := by
  show i ∈ ((View.whole main_v85).slice (win2_3.rect t)).set ↔ _
  rw [View.set_slice_whole, Rect.mem_set_unit]
  exact Iff.rfl

/-- THE RESULT ARRAY after the region: the product plus bias of the three arrays the region found. -/
theorem final2 (c : Dev nD) : (dat2 V c).arrAt 3 cfg2.N = prod2 (V c main_v84) (V c main_arg7) (V c main_arg8) :=
  (dat2 V c).arrAt_eq_of_cover 3 (prod2 (V c main_v84) (V c main_arg7) (V c main_arg8)) (fun t _ => flushed2_eq V c t) fun i => by
    have hi0 : (i 0).val < 800000 := (i 0).isLt
    have hi1 : (i 1).val < 32 := (i 1).isLt
    let t : Fin cfg2.N := ⟨(i 0).val / 8000, by have hN : cfg2.N = 100 := N_2; omega⟩
    obtain ⟨-, -, -, -, -, e5, e6⟩ := idx_facts2 t
    have ht : t.val = (i 0).val / 8000 := rfl
    refine ⟨t, flush2_3 t, ?_⟩
    rw [mem_blk2]
    intro a
    match a with
    | ⟨0, _⟩ => show win2_3.index t (0 : Fin 2) * 8000 ≤ (i 0).val ∧ (i 0).val < win2_3.index t (0 : Fin 2) * 8000 + 8000; omega
    | ⟨1, _⟩ => show win2_3.index t (1 : Fin 2) * 32 ≤ (i 1).val ∧ (i 1).val < win2_3.index t (1 : Fin 2) * 32 + 32; omega

end Cert.KernelIdeal.Hand

end
-- ==== Proof.KiValue.lean ====
/-
  The kernel program's result at the ideal values, as one function of the argument arrays.

  Walking the boundaries: the first three stretches compute, from the edge index array alone, the listed sources and
  targets (with self loops) and the per-edge normalisation; region 0 leaves the plain product x·W1; the next two stretches
  aggregate it along the listed edges, add the bias and rectify; region 1 leaves the product with W2; two more stretches
  aggregate, add the bias and rectify; the last stretch gathers both end points' rows and joins the edge attributes; region
  2 leaves the product with the edge weights plus the bias. No item writes an argument array, and the sources, targets
  and normalisation are written once and only read afterwards, so each value is carried unchanged to where it is read.
-/
import proofs.«122578_j27917287424795_1_alg».proof.Proof.KiRun
import proofs.«122578_j27917287424795_1_alg».proof.Proof.KiStretch
import proofs.«122578_j27917287424795_1_alg».proof.Proof.KiVal0
import proofs.«122578_j27917287424795_1_alg».proof.Proof.KiVal1
import proofs.«122578_j27917287424795_1_alg».proof.Proof.KiVal2

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The edge lists and the normalisation are written once -/

/-- The three buffers the first three stretches leave for the later ones: sources, targets, normalisation. -/
abbrev carried : List (Ref sig .tc) := [main_v3, main_v6, main_v29]

theorem W6_carried (c : Dev nD) (r : Ref sig .tc) (hr : r ∈ carried) : W6 m ρ c r = W3 m ρ c r :=
  (W6_of m ρ c r ((by decide : ∀ r ∈ carried, r ∉ hostOps1_1_W) r hr)).trans
    ((W5_of m ρ c r ((by decide : ∀ r ∈ carried, r ∉ hostOps1_W) r hr)).trans
      (W4_of_ne m ρ c r ((by decide : ∀ r ∈ carried, ∀ w, Pipeline.arrRef spec0 w ≠ r) r hr)))
theorem W4_carried (c : Dev nD) (r : Ref sig .tc) (hr : r ∈ carried) : W4 m ρ c r = W3 m ρ c r :=
  W4_of_ne m ρ c r ((by decide : ∀ r ∈ carried, ∀ w, Pipeline.arrRef spec0 w ≠ r) r hr)
theorem W7_carried (c : Dev nD) (r : Ref sig .tc) (hr : r ∈ carried) : W7 m ρ c r = W3 m ρ c r :=
  (W7_of_ne m ρ c r ((by decide : ∀ r ∈ carried, ∀ w, Pipeline.arrRef spec1 w ≠ r) r hr)).trans (W6_carried m ρ c r hr)

/-! ## The values, boundary by boundary -/

/-- The argument arrays as the program finds them. -/
abbrev xA (c : Dev nD) : Arr (F := Ideal) S50000x64 .f32 := W0 m ρ c (Proc.devRef .tc main_arg0)
abbrev eiA (c : Dev nD) : Arr (F := Ideal) S2x800000 .i32 := W0 m ρ c (Proc.devRef .tc main_arg1)
abbrev eaA (c : Dev nD) : Arr (F := Ideal) S800000x16 .f32 := W0 m ρ c (Proc.devRef .tc main_arg2)
abbrev w1A (c : Dev nD) : Arr (F := Ideal) S64x128 .f32 := W0 m ρ c (Proc.devRef .tc main_arg3)
abbrev b1A (c : Dev nD) : Arr (F := Ideal) S128 .f32 := W0 m ρ c (Proc.devRef .tc main_arg4)
abbrev w2A (c : Dev nD) : Arr (F := Ideal) S128x128 .f32 := W0 m ρ c (Proc.devRef .tc main_arg5)
abbrev b2A (c : Dev nD) : Arr (F := Ideal) S128 .f32 := W0 m ρ c (Proc.devRef .tc main_arg6)
abbrev w3A (c : Dev nD) : Arr (F := Ideal) S272x32 .f32 := W0 m ρ c (Proc.devRef .tc main_arg7)
abbrev b3A (c : Dev nD) : Arr (F := Ideal) S32 .f32 := W0 m ρ c (Proc.devRef .tc main_arg8)

/-- The per-edge normalisation, a function of the edge index array alone. -/
def normF (ei : Arr (F := Ideal) S2x800000 .i32) : Arr (F := Ideal) S850000 .f32 :=
  normOf (dinvOf (degPos (degOf (colOf ei))) (degRsqrt (degOf (colOf ei))) (constant (F := Ideal) S_ .f32 0x00000000#32))
    (rowOf ei) (colOf ei)

/-- One layer on the host: aggregate h along the listed edges, add the bias, rectify. -/
def layerF (ei : Arr (F := Ideal) S2x800000 .i32) (h : Arr (F := Ideal) S50000x128 .f32) (b : Arr (F := Ideal) S128 .f32) :
    Arr (F := Ideal) S50000x128 .f32 :=
  reluOf (aggOf h (rowOf ei) (colOf ei) (normF ei) b) (constant (F := Ideal) S_ .f32 0x00000000#32)

/-- THE RESULT of the kernel program at the ideal values, as a function of the nine argument arrays: the edge layer of
    the edge features of the twice-aggregated hidden features. -/
def resultF (x : Arr (F := Ideal) S50000x64 .f32) (ei : Arr (F := Ideal) S2x800000 .i32) (ea : Arr (F := Ideal) S800000x16 .f32)
    (w1 : Arr (F := Ideal) S64x128 .f32) (b1 : Arr (F := Ideal) S128 .f32) (w2 : Arr (F := Ideal) S128x128 .f32)
    (b2 : Arr (F := Ideal) S128 .f32) (w3 : Arr (F := Ideal) S272x32 .f32) (b3 : Arr (F := Ideal) S32 .f32) :
    Arr (F := Ideal) S800000x32 .f32 :=
  prod2 (featOf (layerF ei (prod1 (layerF ei (prod0 x w1) b1) w2) b2) ei ea) w3 b3

theorem W3_row (c : Dev nD) : (W3 m ρ c (Proc.devRef .tc main_v3) : Arr (F := Ideal) S850000 .i32) = rowOf (eiA m ρ c) :=
  (W3_of m ρ c main_v3 (by decide)).trans ((W2_of m ρ c main_v3 (by decide)).trans (s0_row (W0 m ρ c)))
theorem W3_col (c : Dev nD) : (W3 m ρ c (Proc.devRef .tc main_v6) : Arr (F := Ideal) S850000 .i32) = colOf (eiA m ρ c) :=
  (W3_of m ρ c main_v6 (by decide)).trans ((W2_of m ρ c main_v6 (by decide)).trans (s0_col (W0 m ρ c)))
theorem W3_norm (c : Dev nD) : (W3 m ρ c (Proc.devRef .tc main_v29) : Arr (F := Ideal) S850000 .f32) = normF (eiA m ρ c) := by
  refine (s02_norm (W2 m ρ c)).trans ?_
  unfold normF
  rw [show (W2 m ρ c (Proc.devRef .tc main_v14) : Arr (F := Ideal) S50000 .f32) = _ from s01_dinv (W1 m ρ c),
    show (W1 m ρ c (Proc.devRef .tc main_v12) : Arr (F := Ideal) S50000 .i1) = _ from s0_pos (W0 m ρ c),
    show (W1 m ρ c (Proc.devRef .tc main_v13) : Arr (F := Ideal) S50000 .f32) = _ from s0_rs (W0 m ρ c),
    show (W1 m ρ c (Proc.devRef .tc main_cst_2) : Arr (F := Ideal) S_ .f32) = _ from s0_zero (W0 m ρ c),
    show (W2 m ρ c (Proc.devRef .tc main_v3) : Arr (F := Ideal) S850000 .i32) = _ from (W2_of m ρ c main_v3 (by decide)).trans (s0_row (W0 m ρ c)),
    show (W2 m ρ c (Proc.devRef .tc main_v6) : Arr (F := Ideal) S850000 .i32) = _ from (W2_of m ρ c main_v6 (by decide)).trans (s0_col (W0 m ρ c))]

/-- The hidden features after the first layer (region 1's entry). -/
theorem W6_h1 (c : Dev nD) : (W6 m ρ c (Proc.devRef .tc main_v47) : Arr (F := Ideal) S50000x128 .f32)
    = layerF (eiA m ρ c) (prod0 (xA m ρ c) (w1A m ρ c)) (b1A m ρ c) := by
  refine (s11_relu (W5 m ρ c)).trans ?_
  unfold layerF
  rw [show (W5 m ρ c (Proc.devRef .tc main_v46) : Arr (F := Ideal) S50000x128 .f32) = _ from s1_agg (W4 m ρ c),
    show (W4 m ρ c (Proc.devRef .tc main_v30) : Arr (F := Ideal) S50000x128 .f32) = _ from (W4_arr m ρ c 2).trans (final0 (V3 m ρ) c),
    show (W4 m ρ c (Proc.devRef .tc main_v3) : Arr (F := Ideal) S850000 .i32) = _ from (W4_carried m ρ c main_v3 (by decide)).trans (W3_row m ρ c),
    show (W4 m ρ c (Proc.devRef .tc main_v6) : Arr (F := Ideal) S850000 .i32) = _ from (W4_carried m ρ c main_v6 (by decide)).trans (W3_col m ρ c),
    show (W4 m ρ c (Proc.devRef .tc main_v29) : Arr (F := Ideal) S850000 .f32) = _ from (W4_carried m ρ c main_v29 (by decide)).trans (W3_norm m ρ c),
    show (W4 m ρ c (Proc.devRef .tc main_arg4) : Arr (F := Ideal) S128 .f32) = _ from (W4_arg m ρ c main_arg4 (by decide)).trans (W3_arg m ρ c main_arg4 (by decide)),
    show (V3 m ρ c main_arg0 : Arr (F := Ideal) S50000x64 .f32) = _ from W3_arg m ρ c main_arg0 (by decide),
    show (V3 m ρ c main_arg3 : Arr (F := Ideal) S64x128 .f32) = _ from W3_arg m ρ c main_arg3 (by decide)]

/-- The hidden features after the second layer. -/
theorem W9_h2 (c : Dev nD) : (W9 m ρ c (Proc.devRef .tc main_v65) : Arr (F := Ideal) S50000x128 .f32)
    = layerF (eiA m ρ c) (prod1 (layerF (eiA m ρ c) (prod0 (xA m ρ c) (w1A m ρ c)) (b1A m ρ c)) (w2A m ρ c)) (b2A m ρ c) := by
  refine (s21_relu (W8 m ρ c)).trans ?_
  unfold layerF
  rw [show (W8 m ρ c (Proc.devRef .tc main_v64) : Arr (F := Ideal) S50000x128 .f32) = _ from s2_agg (W7 m ρ c),
    show (W7 m ρ c (Proc.devRef .tc main_v48) : Arr (F := Ideal) S50000x128 .f32) = _ from (W7_arr m ρ c 2).trans (final1 (V6 m ρ) c),
    show (W7 m ρ c (Proc.devRef .tc main_v3) : Arr (F := Ideal) S850000 .i32) = _ from (W7_carried m ρ c main_v3 (by decide)).trans (W3_row m ρ c),
    show (W7 m ρ c (Proc.devRef .tc main_v6) : Arr (F := Ideal) S850000 .i32) = _ from (W7_carried m ρ c main_v6 (by decide)).trans (W3_col m ρ c),
    show (W7 m ρ c (Proc.devRef .tc main_v29) : Arr (F := Ideal) S850000 .f32) = _ from (W7_carried m ρ c main_v29 (by decide)).trans (W3_norm m ρ c),
    show (W7 m ρ c (Proc.devRef .tc main_arg6) : Arr (F := Ideal) S128 .f32) = _ from (W7_arg m ρ c main_arg6 (by decide)).trans (W6_arg m ρ c main_arg6 (by decide)),
    show (V6 m ρ c main_v47 : Arr (F := Ideal) S50000x128 .f32) = _ from W6_h1 m ρ c,
    show (V6 m ρ c main_arg5 : Arr (F := Ideal) S128x128 .f32) = _ from W6_arg m ρ c main_arg5 (by decide)]
  rfl

/-- The result array at the end of @main is the result function of the argument arrays as launched. -/
theorem W11_result (c : Dev nD) : (W11 m ρ c (Proc.devRef .tc main_v85) : Arr (F := Ideal) S800000x32 .f32)
    = resultF (xA m ρ c) (eiA m ρ c) (eaA m ρ c) (w1A m ρ c) (b1A m ρ c) (w2A m ρ c) (b2A m ρ c) (w3A m ρ c) (b3A m ρ c) := by
  refine ((W11_arr m ρ c 3).trans (final2 (V10 m ρ) c)).trans ?_
  unfold resultF
  rw [show (V10 m ρ c main_v84 : Arr (F := Ideal) S800000x272 .f32) = _ from s22_feat (W9 m ρ c),
    show (W9 m ρ c (Proc.devRef .tc main_v65) : Arr (F := Ideal) S50000x128 .f32) = _ from W9_h2 m ρ c,
    show (W9 m ρ c (Proc.devRef .tc main_arg1) : Arr (F := Ideal) S2x800000 .i32) = _ from W9_arg m ρ c main_arg1 (by decide),
    show (W9 m ρ c (Proc.devRef .tc main_arg2) : Arr (F := Ideal) S800000x16 .f32) = _ from W9_arg m ρ c main_arg2 (by decide),
    show (V10 m ρ c main_arg7 : Arr (F := Ideal) S272x32 .f32) = _ from W10_arg m ρ c main_arg7 (by decide),
    show (V10 m ρ c main_arg8 : Arr (F := Ideal) S32 .f32) = _ from W10_arg m ρ c main_arg8 (by decide)]

/-! ## The run, read -/

/-- The run re-posted: the result array at the result function of the arguments as launched, the arguments unchanged. -/
theorem run_value : θ_run defs (onTc (τ := τ) (main (F := Ideal))) ⟨m, fun _ => 0, ρ⟩ (fun r => ∀ c : Dev nD,
      r.2.mem ((c.tc : Thread nD τ).loc main_v85)
        = resultF (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v85 (by decide))).trans (W11_result m ρ c),
     (h c _ (mem_uc main_arg0 (by decide))).trans (W11_arg m ρ c main_arg0 (by decide)),
     (h c _ (mem_uc main_arg1 (by decide))).trans (W11_arg m ρ c main_arg1 (by decide)),
     (h c _ (mem_uc main_arg2 (by decide))).trans (W11_arg m ρ c main_arg2 (by decide)),
     (h c _ (mem_uc main_arg3 (by decide))).trans (W11_arg m ρ c main_arg3 (by decide)),
     (h c _ (mem_uc main_arg4 (by decide))).trans (W11_arg m ρ c main_arg4 (by decide)),
     (h c _ (mem_uc main_arg5 (by decide))).trans (W11_arg m ρ c main_arg5 (by decide)),
     (h c _ (mem_uc main_arg6 (by decide))).trans (W11_arg m ρ c main_arg6 (by decide)),
     (h c _ (mem_uc main_arg7 (by decide))).trans (W11_arg m ρ c main_arg7 (by decide)),
     (h c _ (mem_uc main_arg8 (by decide))).trans (W11_arg m ρ c main_arg8 (by decide))⟩)
    (run_main m ρ)

end Cert.KernelIdeal.Hand

end
-- ==== Proof.RefChain.lean ====
/-
  The host side of the program as a handful of pure functions, in the reference program's own vocabulary: the edge lists with
  their self loops, the degrees and their inverse square roots, the per-edge normalisation, one layer's aggregation,
  the rectifier, and the assembly of the edge features. Each is, operation for operation, what the corresponding
  stretch of @main computes from the values it reads; nothing is proved here.
-/
import proofs.«122578_j27917287424795_1_alg».proof.Proof.Gen.ReferenceIdeal

noncomputable section

namespace Cert.ReferenceIdeal.RefSide

open Cert.ReferenceIdeal Cert.ReferenceIdeal.Gen Idealize.ShloMosaic

variable {F : FTy → Type} [FloatOps F]

/-- An array of shape S and element type e, at the float values F. -/
abbrev Arr (S : Shape) (e : EltTy) : Type := (⟨S, e⟩ : BufTy).Contents (Elt F)

/-- The edges' sources followed by the fifty thousand self loops' nodes. -/
def rowOf (ei : Arr (F := F) S2x800000 .i32) : Arr (F := F) S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' targets followed by the self loops' nodes. -/
def colOf (ei : Arr (F := F) S2x800000 .i32) : Arr (F := F) S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of 850000 node numbers as a column of gather indices: a negative number has the node count added first. -/
def wrapL (r : Arr (F := F) S850000 .i32) : Arr (F := F) S850000x1 .i32 :=
  broadcastInDim S850000x1 ![0] bcast_S850000_S850000x1_0 (select (cmpi .slt r (broadcastInDim S850000 ![] bcast_S_S850000 (constantI S_ 32 0#32))) (addi r (broadcastInDim S850000 ![] bcast_S_S850000 (constantI S_ 32 50000#32))) r)

/-- Each node's degree: one added per listed target. -/
def degOf (col : Arr (F := F) S850000 .i32) : Arr (F := F) S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 col) (broadcastInDim S850000 ![] bcast_S_S850000 (constant S_ .f32 0x3F800000#32))

/-- The degree's positivity and its inverse square root, the two values the selection below reads. -/
def degPos (deg : Arr (F := F) S50000 .f32) : Arr (F := F) S50000 .i1 :=
  cmpf (F := F) .ogt deg (broadcastInDim S50000 ![] bcast_S_S50000 (constant S_ .f32 0x00000000#32))
def degRsqrt (deg : Arr (F := F) S50000 .f32) : Arr (F := F) S50000 .f32 := Host.rsqrt deg

/-- The inverse square root of the degree where it is positive, zero elsewhere. -/
def dinvOf (pos : Arr (F := F) S50000 .i1) (rs : Arr (F := F) S50000 .f32) (z : Arr (F := F) S_ .f32) : Arr (F := F) S50000 .f32 :=
  select pos rs (broadcastInDim S50000 ![] bcast_S_S50000 (id z))

/-- Per listed edge, the product of its two end points' inverse roots. -/
def normOf (dinv : Arr (F := F) S50000 .f32) (row col : Arr (F := F) S850000 .i32) : Arr (F := F) S850000 .f32 :=
  mulf (Host.gather gather_S50000_S850000x1_S850000_n_0_n_n_0_1_1 dinv (wrapL row)) (Host.gather gather_S50000_S850000x1_S850000_n_0_n_n_0_1_1 dinv (wrapL col))

/-- One layer's aggregation: every listed edge's source row of h, scaled by the edge's normalisation, added into its
    target's row; then the bias added to every row. -/
def aggOf (h : Arr (F := F) S50000x128 .f32) (row col : Arr (F := F) S850000 .i32) (norm : Arr (F := F) S850000 .f32)
    (b : Arr (F := F) S128 .f32) : Arr (F := F) S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 col) (mulf (Host.gather gather_S50000x128_S850000x1_S850000x128_1_0_n_n_0_1_1128 h (wrapL row)) (broadcastInDim S850000x128 ![0, 1] bcast_S850000x1_S850000x128_0_1 (broadcastInDim S850000x1 ![0] bcast_S850000_S850000x1_0 norm)))) (broadcastInDim S50000x128 ![0, 1] bcast_S1x128_S50000x128_0_1 (broadcastInDim S1x128 ![1] bcast_S128_S1x128_1 b))

/-- The rectifier: the maximum with zero, entry by entry. -/
def reluOf (x : Arr (F := F) S50000x128 .f32) (z : Arr (F := F) S_ .f32) : Arr (F := F) S50000x128 .f32 :=
  maximumf x (broadcastInDim S50000x128 ![] bcast_S_S50000x128 z)

/-- The edges' sources and targets, without self loops. -/
def srcOf (ei : Arr (F := F) S2x800000 .i32) : Arr (F := F) S800000 .i32 :=
  shapeCast _ (extractStridedSlice S1x800000 ![0, 0] ei slices_S2x800000_S1x800000_0_0) shapeCasts_S1x800000_S800000
def dstOf (ei : Arr (F := F) S2x800000 .i32) : Arr (F := F) S800000 .i32 :=
  shapeCast _ (extractStridedSlice S1x800000 ![1, 0] ei slices_S2x800000_S1x800000_1_0) shapeCasts_S1x800000_S800000

/-- A list of 800000 node numbers as a column of gather indices, negative numbers wrapped as above. -/
def wrapE (r : Arr (F := F) S800000 .i32) : Arr (F := F) S800000x1 .i32 :=
  broadcastInDim S800000x1 ![0] bcast_S800000_S800000x1_0 (select (cmpi .slt r (broadcastInDim S800000 ![] bcast_S_S800000 (constantI S_ 32 0#32))) (addi r (broadcastInDim S800000 ![] bcast_S_S800000 (constantI S_ 32 50000#32))) r)

/-- Per edge: its source's row of h, its target's row of h, and its own attributes, side by side. -/
def featOf (h : Arr (F := F) S50000x128 .f32) (ei : Arr (F := F) S2x800000 .i32) (ea : Arr (F := F) S800000x16 .f32) :
    Arr (F := F) S800000x272 .f32 :=
  concatenate S800000x272 1 [⟨S800000x128, (Host.gather gather_S50000x128_S800000x1_S800000x128_1_0_n_n_0_1_1128 h (wrapE (srcOf ei)))⟩, ⟨S800000x128, (Host.gather gather_S50000x128_S800000x1_S800000x128_1_0_n_n_0_1_1128 h (wrapE (dstOf ei)))⟩, ⟨S800000x16, ea⟩] concatenates_S800000x128_S800000x128_S800000x16_S800000x272_d1

end Cert.ReferenceIdeal.RefSide

end
-- ==== Proof.RefRun.lean ====
/-
  The reference program's run, read back in three stages. Its @main is 153 host operations in a line: the first layer
  (the plain product x·W1, the listed edges with self loops, the degrees, the normalisation, the aggregation with bias,
  the rectifier), the second layer (the same from the first layer's output and W2, the edge lists and the normalisation
  computed again), and the edge layer (both end points' rows gathered and joined with the edge attributes, the plain
  product with the edge weights, the bias repeated down the rows and added). Every buffer ends at the fold of the
  operations over the launch memory; read stage by stage — each stage from ANY contents of the buffers before it — the
  result buffer holds the result function of RefChain's stages applied to the argument arrays, and no operation writes
  an argument array.
-/
import proofs.«122578_j27917287424795_1_alg».proof.Proof.Gen.ReferenceIdeal
import proofs.«122578_j27917287424795_1_alg».proof.Proof.RefChain
import Idealize.ShloMosaic.Lib.StableHlo.Run

set_option maxRecDepth 16384

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-! ## @main's operations, in order, and in three stages -/

/-- The first layer's 63 operations. -/
abbrev opsA : List (HloOp τ sig (Elt F)) :=
  [ binary main_arg0 main_arg3 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_v1 (iotaInDim S50000 32 0),
    unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    reshape main_v5 main_v6 rfl shapeCasts_S1x800000_S800000,
    binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v4 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v4 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v4 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v4 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v4 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v4 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- The second layer's 63 operations. -/
abbrev opsB : List (HloOp τ sig (Elt F)) :=
  [ binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    unary main_arg1 main_v50 ((extractStridedSlice S1x800000 ![0, 0] · slices_S2x800000_S1x800000_0_0) : (⟨S2x800000, .i32⟩ : BufTy).Contents (Elt F) → (⟨S1x800000, .i32⟩ : BufTy).Contents (Elt F)),
    reshape main_v50 main_v51 rfl shapeCasts_S1x800000_S800000,
    binary main_v51 main_v49 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v53 ((extractStridedSlice S1x800000 ![1, 0] · slices_S2x800000_S1x800000_1_0) : (⟨S2x800000, .i32⟩ : BufTy).Contents (Elt F) → (⟨S1x800000, .i32⟩ : BufTy).Contents (Elt F)),
    reshape main_v53 main_v54 rfl shapeCasts_S1x800000_S800000,
    binary main_v54 main_v49 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v56 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select,
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v52 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v52 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v52 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v55 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v55 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v55 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v52 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v52 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v52 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v48 main_v84 main_v85 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x128 ![0, 1] bcast_S850000x1_S850000x128_0_1 : (⟨S850000x1, .f32⟩ : BufTy).Contents (Elt F) → (⟨S850000x128, .f32⟩ : BufTy).Contents (Elt F)),
    binary main_v85 main_v87 main_v88 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v89 (broadcastInDim S50000x128 ![] bcast_S_S50000x128 : (⟨S_, .f32⟩ : BufTy).Contents (Elt F) → (⟨S50000x128, .f32⟩ : BufTy).Contents (Elt F)),
    unary main_v55 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf ]

/-- The edge layer's 27 operations. -/
abbrev opsC : List (HloOp τ sig (Elt F)) :=
  [ unary main_arg1 main_v96 ((extractStridedSlice S1x800000 ![0, 0] · slices_S2x800000_S1x800000_0_0) : (⟨S2x800000, .i32⟩ : BufTy).Contents (Elt F) → (⟨S1x800000, .i32⟩ : BufTy).Contents (Elt F)),
    reshape main_v96 main_v97 rfl shapeCasts_S1x800000_S800000,
    unary main_arg1 main_v98 ((extractStridedSlice S1x800000 ![1, 0] · slices_S2x800000_S1x800000_1_0) : (⟨S2x800000, .i32⟩ : BufTy).Contents (Elt F) → (⟨S1x800000, .i32⟩ : BufTy).Contents (Elt F)),
    reshape main_v98 main_v99 rfl shapeCasts_S1x800000_S800000,
    nullary main_c_20 (constantI S_ 32 0#32),
    unary main_c_20 main_v100 (broadcastInDim S800000 ![] bcast_S_S800000 : (⟨S_, .i32⟩ : BufTy).Contents (Elt F) → (⟨S800000, .i32⟩ : BufTy).Contents (Elt F)),
    binary main_v97 main_v100 main_v101 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v102 (broadcastInDim S800000 ![] bcast_S_S800000 : (⟨S_, .i32⟩ : BufTy).Contents (Elt F) → (⟨S800000, .i32⟩ : BufTy).Contents (Elt F)),
    binary main_v97 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v97 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v95 main_v105 main_v106 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_22 (constantI S_ 32 0#32),
    unary main_c_22 main_v107 (broadcastInDim S800000 ![] bcast_S_S800000 : (⟨S_, .i32⟩ : BufTy).Contents (Elt F) → (⟨S800000, .i32⟩ : BufTy).Contents (Elt F)),
    binary main_v99 main_v107 main_v108 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v109 (broadcastInDim S800000 ![] bcast_S_S800000 : (⟨S_, .i32⟩ : BufTy).Contents (Elt F) → (⟨S800000, .i32⟩ : BufTy).Contents (Elt F)),
    binary main_v99 main_v109 main_v110 (addi : (⟨S800000, .i32⟩ : BufTy).Contents (Elt F) → (⟨S800000, .i32⟩ : BufTy).Contents (Elt F) → (⟨S800000, .i32⟩ : BufTy).Contents (Elt F)),
    ternary main_v108 main_v110 main_v99 main_v111 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v111 main_v112 (broadcastInDim S800000x1 ![0] bcast_S800000_S800000x1_0 : (⟨S800000, .i32⟩ : BufTy).Contents (Elt F) → (⟨S800000x1, .i32⟩ : BufTy).Contents (Elt F)),
    binary main_v95 main_v112 main_v113 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v106, main_v113, main_arg2] main_v114 (fun u => concatenate S800000x272 1 [⟨S800000x128, u 0⟩, ⟨S800000x128, u 1⟩, ⟨S800000x16, u 2⟩] concatenates_S800000x128_S800000x128_S800000x16_S800000x272_d1),
    binary main_v114 main_arg7 main_v115 ((fun l r => Host.dotGeneral dot_S800000x272_S272x32_S800000x32_1_0_0_1_n_n none l r) : (⟨S800000x272, .f32⟩ : BufTy).Contents (Elt F) → (⟨S272x32, .f32⟩ : BufTy).Contents (Elt F) → (⟨S800000x32, .f32⟩ : BufTy).Contents (Elt F)),
    unary main_arg8 main_v116 (broadcastInDim S1x32 ![1] bcast_S32_S1x32_1 : (⟨S32, .f32⟩ : BufTy).Contents (Elt F) → (⟨S1x32, .f32⟩ : BufTy).Contents (Elt F)),
    unary main_v116 main_v117 (broadcastInDim S800000x32 ![0, 1] bcast_S1x32_S800000x32_0_1 : (⟨S1x32, .f32⟩ : BufTy).Contents (Elt F) → (⟨S800000x32, .f32⟩ : BufTy).Contents (Elt F)),
    binary main_v115 main_v117 main_v118 (addf : (⟨S800000x32, .f32⟩ : BufTy).Contents (Elt F) → (⟨S800000x32, .f32⟩ : BufTy).Contents (Elt F) → (⟨S800000x32, .f32⟩ : BufTy).Contents (Elt F)) ]

/-- @main's 153 operations (a called function's operations stand in its call's place). -/
abbrev ops : List (HloOp τ sig (Elt F)) :=
  [ binary main_arg0 main_arg3 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_v1 (iotaInDim S50000 32 0),
    unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    reshape main_v2 main_v3 rfl shapeCasts_S1x800000_S800000,
    binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    reshape main_v5 main_v6 rfl shapeCasts_S1x800000_S800000,
    binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v4 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v4 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v4 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v4 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v4 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v4 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    unary main_arg1 main_v50 ((extractStridedSlice S1x800000 ![0, 0] · slices_S2x800000_S1x800000_0_0) : (⟨S2x800000, .i32⟩ : BufTy).Contents (Elt F) → (⟨S1x800000, .i32⟩ : BufTy).Contents (Elt F)),
    reshape main_v50 main_v51 rfl shapeCasts_S1x800000_S800000,
    binary main_v51 main_v49 main_v52 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v53 ((extractStridedSlice S1x800000 ![1, 0] · slices_S2x800000_S1x800000_1_0) : (⟨S2x800000, .i32⟩ : BufTy).Contents (Elt F) → (⟨S1x800000, .i32⟩ : BufTy).Contents (Elt F)),
    reshape main_v53 main_v54 rfl shapeCasts_S1x800000_S800000,
    binary main_v54 main_v49 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v56 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select,
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v52 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v52 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v52 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v55 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v55 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v55 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v52 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v52 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v52 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v48 main_v84 main_v85 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x128 ![0, 1] bcast_S850000x1_S850000x128_0_1 : (⟨S850000x1, .f32⟩ : BufTy).Contents (Elt F) → (⟨S850000x128, .f32⟩ : BufTy).Contents (Elt F)),
    binary main_v85 main_v87 main_v88 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v89 (broadcastInDim S50000x128 ![] bcast_S_S50000x128 : (⟨S_, .f32⟩ : BufTy).Contents (Elt F) → (⟨S50000x128, .f32⟩ : BufTy).Contents (Elt F)),
    unary main_v55 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf,
    unary main_arg1 main_v96 ((extractStridedSlice S1x800000 ![0, 0] · slices_S2x800000_S1x800000_0_0) : (⟨S2x800000, .i32⟩ : BufTy).Contents (Elt F) → (⟨S1x800000, .i32⟩ : BufTy).Contents (Elt F)),
    reshape main_v96 main_v97 rfl shapeCasts_S1x800000_S800000,
    unary main_arg1 main_v98 ((extractStridedSlice S1x800000 ![1, 0] · slices_S2x800000_S1x800000_1_0) : (⟨S2x800000, .i32⟩ : BufTy).Contents (Elt F) → (⟨S1x800000, .i32⟩ : BufTy).Contents (Elt F)),
    reshape main_v98 main_v99 rfl shapeCasts_S1x800000_S800000,
    nullary main_c_20 (constantI S_ 32 0#32),
    unary main_c_20 main_v100 (broadcastInDim S800000 ![] bcast_S_S800000 : (⟨S_, .i32⟩ : BufTy).Contents (Elt F) → (⟨S800000, .i32⟩ : BufTy).Contents (Elt F)),
    binary main_v97 main_v100 main_v101 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v102 (broadcastInDim S800000 ![] bcast_S_S800000 : (⟨S_, .i32⟩ : BufTy).Contents (Elt F) → (⟨S800000, .i32⟩ : BufTy).Contents (Elt F)),
    binary main_v97 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v97 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v95 main_v105 main_v106 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_22 (constantI S_ 32 0#32),
    unary main_c_22 main_v107 (broadcastInDim S800000 ![] bcast_S_S800000 : (⟨S_, .i32⟩ : BufTy).Contents (Elt F) → (⟨S800000, .i32⟩ : BufTy).Contents (Elt F)),
    binary main_v99 main_v107 main_v108 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v109 (broadcastInDim S800000 ![] bcast_S_S800000 : (⟨S_, .i32⟩ : BufTy).Contents (Elt F) → (⟨S800000, .i32⟩ : BufTy).Contents (Elt F)),
    binary main_v99 main_v109 main_v110 (addi : (⟨S800000, .i32⟩ : BufTy).Contents (Elt F) → (⟨S800000, .i32⟩ : BufTy).Contents (Elt F) → (⟨S800000, .i32⟩ : BufTy).Contents (Elt F)),
    ternary main_v108 main_v110 main_v99 main_v111 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v111 main_v112 (broadcastInDim S800000x1 ![0] bcast_S800000_S800000x1_0 : (⟨S800000, .i32⟩ : BufTy).Contents (Elt F) → (⟨S800000x1, .i32⟩ : BufTy).Contents (Elt F)),
    binary main_v95 main_v112 main_v113 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nary ![main_v106, main_v113, main_arg2] main_v114 (fun u => concatenate S800000x272 1 [⟨S800000x128, u 0⟩, ⟨S800000x128, u 1⟩, ⟨S800000x16, u 2⟩] concatenates_S800000x128_S800000x128_S800000x16_S800000x272_d1),
    binary main_v114 main_arg7 main_v115 ((fun l r => Host.dotGeneral dot_S800000x272_S272x32_S800000x32_1_0_0_1_n_n none l r) : (⟨S800000x272, .f32⟩ : BufTy).Contents (Elt F) → (⟨S272x32, .f32⟩ : BufTy).Contents (Elt F) → (⟨S800000x32, .f32⟩ : BufTy).Contents (Elt F)),
    unary main_arg8 main_v116 (broadcastInDim S1x32 ![1] bcast_S32_S1x32_1 : (⟨S32, .f32⟩ : BufTy).Contents (Elt F) → (⟨S1x32, .f32⟩ : BufTy).Contents (Elt F)),
    unary main_v116 main_v117 (broadcastInDim S800000x32 ![0, 1] bcast_S1x32_S800000x32_0_1 : (⟨S1x32, .f32⟩ : BufTy).Contents (Elt F) → (⟨S800000x32, .f32⟩ : BufTy).Contents (Elt F)),
    binary main_v115 main_v117 main_v118 (addf : (⟨S800000x32, .f32⟩ : BufTy).Contents (Elt F) → (⟨S800000x32, .f32⟩ : BufTy).Contents (Elt F) → (⟨S800000x32, .f32⟩ : BufTy).Contents (Elt F)) ]

theorem ops_split : (ops : List (HloOp τ sig (Elt F))) = opsA ++ (opsB ++ opsC) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub ..⟩

/-- THE RUN, unread: every weakly fair execution of @main terminates and every buffer ends at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (launchContents m d) (Proc.devRef .tc b) :=
  run_seq scopedRefs_eq scopedSems_eq defs main (fun _ => ops) main_eq (fun _ => ops_sub) m ρ

/-- A line of operations run from the contents another line leaves is the two lines run as one. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The result function -/

/-- The per-edge normalisation, a function of the edge index array alone. -/
def normR (ei : Arr (F := F) S2x800000 .i32) : Arr (F := F) S850000 .f32 :=
  normOf (dinvOf (degPos (degOf (colOf ei))) (degRsqrt (degOf (colOf ei))) (constant (F := F) S_ .f32 0x00000000#32))
    (rowOf ei) (colOf ei)

/-- One layer on the host: aggregate h along the listed edges, add the bias, rectify. -/
def layerR (ei : Arr (F := F) S2x800000 .i32) (h : Arr (F := F) S50000x128 .f32) (b : Arr (F := F) S128 .f32) :
    Arr (F := F) S50000x128 .f32 :=
  reluOf (aggOf h (rowOf ei) (colOf ei) (normR ei) b) (constant (F := F) S_ .f32 0x00000000#32)

/-- The edge layer: the plain product of the edge features with the edge weights, plus the bias repeated down the rows. -/
def edgeR (h : Arr (F := F) S50000x128 .f32) (ei : Arr (F := F) S2x800000 .i32) (ea : Arr (F := F) S800000x16 .f32)
    (w3 : Arr (F := F) S272x32 .f32) (b3 : Arr (F := F) S32 .f32) : Arr (F := F) S800000x32 .f32 :=
  addf (Host.dotGeneral (φ₁ := .f32) (φ₂ := .f32) dot_S800000x272_S272x32_S800000x32_1_0_0_1_n_n none (featOf h ei ea) w3)
    (broadcastInDim S800000x32 ![0, 1] bcast_S1x32_S800000x32_0_1 (broadcastInDim S1x32 ![1] bcast_S32_S1x32_1 b3))

/-- THE RESULT of the reference program as a function of the nine argument arrays. -/
def resultR (x : Arr (F := F) S50000x64 .f32) (ei : Arr (F := F) S2x800000 .i32) (ea : Arr (F := F) S800000x16 .f32)
    (w1 : Arr (F := F) S64x128 .f32) (b1 : Arr (F := F) S128 .f32) (w2 : Arr (F := F) S128x128 .f32)
    (b2 : Arr (F := F) S128 .f32) (w3 : Arr (F := F) S272x32 .f32) (b3 : Arr (F := F) S32 .f32) :
    Arr (F := F) S800000x32 .f32 :=
  edgeR (layerR ei (Host.dotGeneral (φ₁ := .f32) (φ₂ := .f32) dot_S50000x128_S128x128_S50000x128_1_0_0_1_n_n none
      (layerR ei (Host.dotGeneral (φ₁ := .f32) (φ₂ := .f32) dot_S50000x64_S64x128_S50000x128_1_0_0_1_n_n none x w1) b1) w2) b2)
    ei ea w3 b3

/-! ## The stages, read back from any contents -/

variable (Vin : Valuation τ sig (Elt F))

set_option maxHeartbeats 8000000 in
/-- The first layer leaves the layer function of the first product. -/
theorem stageA : (StableHlo.after opsA Vin (Proc.devRef .tc main_v47) : Arr (F := F) S50000x128 .f32)
    = layerR (Vin (Proc.devRef .tc main_arg1))
        (Host.dotGeneral (φ₁ := .f32) (φ₂ := .f32) dot_S50000x64_S64x128_S50000x128_1_0_0_1_n_n none
          (Vin (Proc.devRef .tc main_arg0)) (Vin (Proc.devRef .tc main_arg3)))
        (Vin (Proc.devRef .tc main_arg4)) := by
  dsimp only [opsA]; after_results; all_goals rfl

set_option maxHeartbeats 8000000 in
/-- The second layer leaves the layer function of the product of what it finds with the second weights. -/
theorem stageB : (StableHlo.after opsB Vin (Proc.devRef .tc main_v95) : Arr (F := F) S50000x128 .f32)
    = layerR (Vin (Proc.devRef .tc main_arg1))
        (Host.dotGeneral (φ₁ := .f32) (φ₂ := .f32) dot_S50000x128_S128x128_S50000x128_1_0_0_1_n_n none
          (Vin (Proc.devRef .tc main_v47)) (Vin (Proc.devRef .tc main_arg5)))
        (Vin (Proc.devRef .tc main_arg6)) := by
  dsimp only [opsB]; after_results; all_goals rfl

set_option maxHeartbeats 8000000 in
/-- The edge layer leaves the edge function of the hidden features it finds. -/
theorem stageC : (StableHlo.after opsC Vin (Proc.devRef .tc main_v118) : Arr (F := F) S800000x32 .f32)
    = edgeR (Vin (Proc.devRef .tc main_v95)) (Vin (Proc.devRef .tc main_arg1)) (Vin (Proc.devRef .tc main_arg2))
        (Vin (Proc.devRef .tc main_arg7)) (Vin (Proc.devRef .tc main_arg8)) := by
  dsimp only [opsC]; after_results; all_goals rfl

set_option maxHeartbeats 8000000 in
/-- No operation of the first layer writes an argument array, -/
theorem keepA : StableHlo.after opsA Vin (Proc.devRef .tc main_arg0) = Vin (Proc.devRef .tc main_arg0)
    ∧ StableHlo.after opsA Vin (Proc.devRef .tc main_arg1) = Vin (Proc.devRef .tc main_arg1)
    ∧ StableHlo.after opsA Vin (Proc.devRef .tc main_arg2) = Vin (Proc.devRef .tc main_arg2)
    ∧ StableHlo.after opsA Vin (Proc.devRef .tc main_arg3) = Vin (Proc.devRef .tc main_arg3)
    ∧ StableHlo.after opsA Vin (Proc.devRef .tc main_arg4) = Vin (Proc.devRef .tc main_arg4)
    ∧ StableHlo.after opsA Vin (Proc.devRef .tc main_arg5) = Vin (Proc.devRef .tc main_arg5)
    ∧ StableHlo.after opsA Vin (Proc.devRef .tc main_arg6) = Vin (Proc.devRef .tc main_arg6)
    ∧ StableHlo.after opsA Vin (Proc.devRef .tc main_arg7) = Vin (Proc.devRef .tc main_arg7)
    ∧ StableHlo.after opsA Vin (Proc.devRef .tc main_arg8) = Vin (Proc.devRef .tc main_arg8) := by
  refine ⟨?_, ?_, ?_, ?_, ?_, ?_, ?_, ?_, ?_⟩ <;> (dsimp only [opsA]; after_results; all_goals rfl)

set_option maxHeartbeats 8000000 in
/-- nor of the second, -/
theorem keepB : StableHlo.after opsB Vin (Proc.devRef .tc main_arg0) = Vin (Proc.devRef .tc main_arg0)
    ∧ StableHlo.after opsB Vin (Proc.devRef .tc main_arg1) = Vin (Proc.devRef .tc main_arg1)
    ∧ StableHlo.after opsB Vin (Proc.devRef .tc main_arg2) = Vin (Proc.devRef .tc main_arg2)
    ∧ StableHlo.after opsB Vin (Proc.devRef .tc main_arg3) = Vin (Proc.devRef .tc main_arg3)
    ∧ StableHlo.after opsB Vin (Proc.devRef .tc main_arg4) = Vin (Proc.devRef .tc main_arg4)
    ∧ StableHlo.after opsB Vin (Proc.devRef .tc main_arg5) = Vin (Proc.devRef .tc main_arg5)
    ∧ StableHlo.after opsB Vin (Proc.devRef .tc main_arg6) = Vin (Proc.devRef .tc main_arg6)
    ∧ StableHlo.after opsB Vin (Proc.devRef .tc main_arg7) = Vin (Proc.devRef .tc main_arg7)
    ∧ StableHlo.after opsB Vin (Proc.devRef .tc main_arg8) = Vin (Proc.devRef .tc main_arg8) := by
  refine ⟨?_, ?_, ?_, ?_, ?_, ?_, ?_, ?_, ?_⟩ <;> (dsimp only [opsB]; after_results; all_goals rfl)

set_option maxHeartbeats 8000000 in
/-- nor of the edge layer. -/
theorem keepC : StableHlo.after opsC Vin (Proc.devRef .tc main_arg0) = Vin (Proc.devRef .tc main_arg0)
    ∧ StableHlo.after opsC Vin (Proc.devRef .tc main_arg1) = Vin (Proc.devRef .tc main_arg1)
    ∧ StableHlo.after opsC Vin (Proc.devRef .tc main_arg2) = Vin (Proc.devRef .tc main_arg2)
    ∧ StableHlo.after opsC Vin (Proc.devRef .tc main_arg3) = Vin (Proc.devRef .tc main_arg3)
    ∧ StableHlo.after opsC Vin (Proc.devRef .tc main_arg4) = Vin (Proc.devRef .tc main_arg4)
    ∧ StableHlo.after opsC Vin (Proc.devRef .tc main_arg5) = Vin (Proc.devRef .tc main_arg5)
    ∧ StableHlo.after opsC Vin (Proc.devRef .tc main_arg6) = Vin (Proc.devRef .tc main_arg6)
    ∧ StableHlo.after opsC Vin (Proc.devRef .tc main_arg7) = Vin (Proc.devRef .tc main_arg7)
    ∧ StableHlo.after opsC Vin (Proc.devRef .tc main_arg8) = Vin (Proc.devRef .tc main_arg8) := by
  refine ⟨?_, ?_, ?_, ?_, ?_, ?_, ?_, ?_, ?_⟩ <;> (dsimp only [opsC]; after_results; all_goals rfl)

/-! ## The whole line -/

/-- After all 153 operations the result buffer holds the result function of the argument arrays found at the start. -/
theorem res_value : (StableHlo.after ops Vin (Proc.devRef .tc main_v118) : Arr (F := F) S800000x32 .f32)
    = resultR (Vin (Proc.devRef .tc main_arg0)) (Vin (Proc.devRef .tc main_arg1)) (Vin (Proc.devRef .tc main_arg2))
        (Vin (Proc.devRef .tc main_arg3)) (Vin (Proc.devRef .tc main_arg4)) (Vin (Proc.devRef .tc main_arg5))
        (Vin (Proc.devRef .tc main_arg6)) (Vin (Proc.devRef .tc main_arg7)) (Vin (Proc.devRef .tc main_arg8)) := by
  rw [ops_split, after_append, after_append]
  obtain ⟨-, a1, a2, -, -, a5, a6, a7, a8⟩ := keepA Vin
  obtain ⟨-, b1, b2, -, -, -, -, b7, b8⟩ := keepB (StableHlo.after opsA Vin)
  refine (stageC (StableHlo.after opsB (StableHlo.after opsA Vin))).trans ?_
  unfold resultR
  rw [show (StableHlo.after opsB (StableHlo.after opsA Vin) (Proc.devRef .tc main_v95) : Arr (F := F) S50000x128 .f32) = _ from stageB (StableHlo.after opsA Vin),
    show (StableHlo.after opsA Vin (Proc.devRef .tc main_v47) : Arr (F := F) S50000x128 .f32) = _ from stageA Vin,
    b1, b2, b7, b8, a1, a2, a5, a6, a7, a8]

/-- And every argument array is as found at the start. -/
theorem arg_value : StableHlo.after ops Vin (Proc.devRef .tc main_arg0) = Vin (Proc.devRef .tc main_arg0)
    ∧ StableHlo.after ops Vin (Proc.devRef .tc main_arg1) = Vin (Proc.devRef .tc main_arg1)
    ∧ StableHlo.after ops Vin (Proc.devRef .tc main_arg2) = Vin (Proc.devRef .tc main_arg2)
    ∧ StableHlo.after ops Vin (Proc.devRef .tc main_arg3) = Vin (Proc.devRef .tc main_arg3)
    ∧ StableHlo.after ops Vin (Proc.devRef .tc main_arg4) = Vin (Proc.devRef .tc main_arg4)
    ∧ StableHlo.after ops Vin (Proc.devRef .tc main_arg5) = Vin (Proc.devRef .tc main_arg5)
    ∧ StableHlo.after ops Vin (Proc.devRef .tc main_arg6) = Vin (Proc.devRef .tc main_arg6)
    ∧ StableHlo.after ops Vin (Proc.devRef .tc main_arg7) = Vin (Proc.devRef .tc main_arg7)
    ∧ StableHlo.after ops Vin (Proc.devRef .tc main_arg8) = Vin (Proc.devRef .tc main_arg8) := by
  rw [ops_split, after_append, after_append]
  obtain ⟨a0, a1, a2, a3, a4, a5, a6, a7, a8⟩ := keepA Vin
  obtain ⟨b0, b1, b2, b3, b4, b5, b6, b7, b8⟩ := keepB (StableHlo.after opsA Vin)
  obtain ⟨c0, c1, c2, c3, c4, c5, c6, c7, c8⟩ := keepC (StableHlo.after opsB (StableHlo.after opsA Vin))
  exact ⟨c0.trans (b0.trans a0), c1.trans (b1.trans a1), c2.trans (b2.trans a2), c3.trans (b3.trans a3), c4.trans (b4.trans a4),
    c5.trans (b5.trans a5), c6.trans (b6.trans a6), c7.trans (b7.trans a7), c8.trans (b8.trans a8)⟩

/-! ## The run, read -/

/-- Every weakly fair execution of the reference terminates with the result at the result function of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118)
        = resultR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨k0, k1, k2, k3, k4, k5, k6, k7, k8⟩ := arg_value (F := F) (launchContents m c)
    exact ⟨(h c main_v118).trans (res_value (launchContents m c)), (h c main_arg0).trans k0, (h c main_arg1).trans k1,
      (h c main_arg2).trans k2, (h c main_arg3).trans k3, (h c main_arg4).trans k4, (h c main_arg5).trans k5,
      (h c main_arg6).trans k6, (h c main_arg7).trans k7, (h c main_arg8).trans k8⟩)
    (run_after m ρ)

end Cert.ReferenceIdeal.RefSide

end
-- ==== Proof.Bridge.lean ====
/-
  The two programs compute one function. The kernel program's result function (KiValue) and the reference's (RefRun)
  are built from the same host stages — each program's vocabulary names the same shapes and dimension records — around
  three products; the kernel's three regions leave exactly the host's plain products (KiVal0–2). So the two result
  functions agree on every choice of the nine arrays, with no condition on the entries: both sides are the same sums in
  the same grouping, and nothing is rearranged.
-/
import proofs.«122578_j27917287424795_1_alg».proof.Proof.KiValue
import proofs.«122578_j27917287424795_1_alg».proof.Proof.RefRun

set_option maxRecDepth 16384

noncomputable section

namespace Cert.Bridge

open Idealize.ShloMosaic

/-! Stage by stage the two vocabularies name one function: the shapes and the dimension records are the same literals. -/

theorem rowOf_eq (ei : Cert.KernelIdeal.Hand.Arr (F := Ideal) Cert.KernelIdeal.S2x800000 .i32) : Cert.KernelIdeal.Hand.rowOf ei = Cert.ReferenceIdeal.RefSide.rowOf (F := Ideal) ei := rfl
theorem colOf_eq (ei : Cert.KernelIdeal.Hand.Arr (F := Ideal) Cert.KernelIdeal.S2x800000 .i32) : Cert.KernelIdeal.Hand.colOf ei = Cert.ReferenceIdeal.RefSide.colOf (F := Ideal) ei := rfl
theorem degOf_eq (col : Cert.KernelIdeal.Hand.Arr (F := Ideal) Cert.KernelIdeal.S850000 .i32) : Cert.KernelIdeal.Hand.degOf col = Cert.ReferenceIdeal.RefSide.degOf (F := Ideal) col := rfl
theorem degPos_eq (deg : Cert.KernelIdeal.Hand.Arr (F := Ideal) Cert.KernelIdeal.S50000 .f32) : Cert.KernelIdeal.Hand.degPos deg = Cert.ReferenceIdeal.RefSide.degPos (F := Ideal) deg := rfl
theorem degRsqrt_eq (deg : Cert.KernelIdeal.Hand.Arr (F := Ideal) Cert.KernelIdeal.S50000 .f32) : Cert.KernelIdeal.Hand.degRsqrt deg = Cert.ReferenceIdeal.RefSide.degRsqrt (F := Ideal) deg := rfl
theorem dinvOf_eq (pos : Cert.KernelIdeal.Hand.Arr (F := Ideal) Cert.KernelIdeal.S50000 .i1) (rs : Cert.KernelIdeal.Hand.Arr (F := Ideal) Cert.KernelIdeal.S50000 .f32) (z : Cert.KernelIdeal.Hand.Arr (F := Ideal) Cert.KernelIdeal.S_ .f32) :
    Cert.KernelIdeal.Hand.dinvOf pos rs z = Cert.ReferenceIdeal.RefSide.dinvOf (F := Ideal) pos rs z := rfl
theorem normOf_eq (dinv : Cert.KernelIdeal.Hand.Arr (F := Ideal) Cert.KernelIdeal.S50000 .f32) (row col : Cert.KernelIdeal.Hand.Arr (F := Ideal) Cert.KernelIdeal.S850000 .i32) :
    Cert.KernelIdeal.Hand.normOf dinv row col = Cert.ReferenceIdeal.RefSide.normOf (F := Ideal) dinv row col := rfl
theorem aggOf_eq (h : Cert.KernelIdeal.Hand.Arr (F := Ideal) Cert.KernelIdeal.S50000x128 .f32) (row col : Cert.KernelIdeal.Hand.Arr (F := Ideal) Cert.KernelIdeal.S850000 .i32) (norm : Cert.KernelIdeal.Hand.Arr (F := Ideal) Cert.KernelIdeal.S850000 .f32)
    (b : Cert.KernelIdeal.Hand.Arr (F := Ideal) Cert.KernelIdeal.S128 .f32) : Cert.KernelIdeal.Hand.aggOf h row col norm b = Cert.ReferenceIdeal.RefSide.aggOf (F := Ideal) h row col norm b := rfl
theorem reluOf_eq (x : Cert.KernelIdeal.Hand.Arr (F := Ideal) Cert.KernelIdeal.S50000x128 .f32) (z : Cert.KernelIdeal.Hand.Arr (F := Ideal) Cert.KernelIdeal.S_ .f32) : Cert.KernelIdeal.Hand.reluOf x z = Cert.ReferenceIdeal.RefSide.reluOf (F := Ideal) x z := rfl
theorem featOf_eq (h : Cert.KernelIdeal.Hand.Arr (F := Ideal) Cert.KernelIdeal.S50000x128 .f32) (ei : Cert.KernelIdeal.Hand.Arr (F := Ideal) Cert.KernelIdeal.S2x800000 .i32) (ea : Cert.KernelIdeal.Hand.Arr (F := Ideal) Cert.KernelIdeal.S800000x16 .f32) :
    Cert.KernelIdeal.Hand.featOf h ei ea = Cert.ReferenceIdeal.RefSide.featOf (F := Ideal) h ei ea := rfl

theorem normF_eq (ei : Cert.KernelIdeal.Hand.Arr (F := Ideal) Cert.KernelIdeal.S2x800000 .i32) : Cert.KernelIdeal.Hand.normF ei = Cert.ReferenceIdeal.RefSide.normR (F := Ideal) ei := by
  unfold Cert.KernelIdeal.Hand.normF Cert.ReferenceIdeal.RefSide.normR
  rw [rowOf_eq, colOf_eq, degOf_eq, degPos_eq, degRsqrt_eq, dinvOf_eq, normOf_eq]

theorem layerF_eq (ei : Cert.KernelIdeal.Hand.Arr (F := Ideal) Cert.KernelIdeal.S2x800000 .i32) (h : Cert.KernelIdeal.Hand.Arr (F := Ideal) Cert.KernelIdeal.S50000x128 .f32) (b : Cert.KernelIdeal.Hand.Arr (F := Ideal) Cert.KernelIdeal.S128 .f32) :
    Cert.KernelIdeal.Hand.layerF ei h b = Cert.ReferenceIdeal.RefSide.layerR (F := Ideal) ei h b := by
  unfold Cert.KernelIdeal.Hand.layerF Cert.ReferenceIdeal.RefSide.layerR
  rw [normF_eq, rowOf_eq, colOf_eq, aggOf_eq, reluOf_eq]

/-- THE BRIDGE: on any nine arrays the kernel program's result function is the reference's. -/
theorem result_eq (x : Cert.KernelIdeal.Hand.Arr (F := Ideal) Cert.KernelIdeal.S50000x64 .f32) (ei : Cert.KernelIdeal.Hand.Arr (F := Ideal) Cert.KernelIdeal.S2x800000 .i32) (ea : Cert.KernelIdeal.Hand.Arr (F := Ideal) Cert.KernelIdeal.S800000x16 .f32)
    (w1 : Cert.KernelIdeal.Hand.Arr (F := Ideal) Cert.KernelIdeal.S64x128 .f32) (b1 : Cert.KernelIdeal.Hand.Arr (F := Ideal) Cert.KernelIdeal.S128 .f32) (w2 : Cert.KernelIdeal.Hand.Arr (F := Ideal) Cert.KernelIdeal.S128x128 .f32)
    (b2 : Cert.KernelIdeal.Hand.Arr (F := Ideal) Cert.KernelIdeal.S128 .f32) (w3 : Cert.KernelIdeal.Hand.Arr (F := Ideal) Cert.KernelIdeal.S272x32 .f32) (b3 : Cert.KernelIdeal.Hand.Arr (F := Ideal) Cert.KernelIdeal.S32 .f32) :
    Cert.KernelIdeal.Hand.resultF x ei ea w1 b1 w2 b2 w3 b3 = Cert.ReferenceIdeal.RefSide.resultR (F := Ideal) x ei ea w1 b1 w2 b2 w3 b3 := by
  unfold Cert.KernelIdeal.Hand.resultF Cert.ReferenceIdeal.RefSide.resultR Cert.ReferenceIdeal.RefSide.edgeR Cert.KernelIdeal.Hand.prod2 Cert.KernelIdeal.Hand.prod1 Cert.KernelIdeal.Hand.prod0
  rw [layerF_eq, layerF_eq, featOf_eq]

end Cert.Bridge

end
-- ==== Proof.lean ====
/-
  The certificate of a two-layer graph convolution followed by an edge layer, against its plain reference.

  Both programs compute, from node features x[50000, 64], an edge list of 800000 (source, target) pairs, edge attributes
  [800000, 16] and the layers' weights and biases:
    * the listed edges with one self loop per node, each node's degree d, and per listed edge (s, t) the normalisation
      d[s]^(-1/2) · d[t]^(-1/2) (zero where a degree is not positive);
    * twice: a plain product with a weight matrix, then for every node the sum over the listed edges into it of the
      normalised source row, plus a bias, rectified;
    * per edge, its source's and its target's hidden rows joined with the edge's attributes, times the edge weights, plus a
      bias.
  The kernel program runs the three products as tiled regions on the device — each point of a grid reads a block of rows
  and the whole weight matrix, rounds them to bf16, multiplies from a zero accumulator and writes the block of the
  result — and everything else as host operations; the reference is host operations throughout.

  At the ideal values a rounding is the identity and a product from a zero accumulator is the plain sum over the
  contracted index, so each region leaves exactly the host's product of its input arrays (KiVal0, KiVal1, KiVal2: what a
  point writes back, and the blocks tiling the rows); the host stretches in between are the same operations in both
  programs (KiStretch, RefRun); hence both results are one function of the arguments (Bridge). No entry needs to be
  finite: the two sides are the same sums in the same grouping.

  The frames: each program's @main is eleven items, host stretches and regions alternating; each region's body is run once
  at symbolic operands, and the items chain from the launch memory to the return (KiRun for the idealized program, KbRun
  for the program as printed: the same text at the two instances). No item writes an argument array. The reference is
  host operations only, and its frame is its run with the result dropped. The idealization rewrote nothing, so there is
  nothing to preserve.
-/
import proofs.«122578_j27917287424795_1_alg».proof.Defs
import proofs.«122578_j27917287424795_1_alg».proof.Proof.Gen.Kernel
import proofs.«122578_j27917287424795_1_alg».proof.Proof.Gen.KernelIdeal
import proofs.«122578_j27917287424795_1_alg».proof.Proof.Gen.ReferenceIdeal
import proofs.«122578_j27917287424795_1_alg».proof.Proof.Gen.Pre_finite_inputs
import proofs.«122578_j27917287424795_1_alg».proof.Proof.KbRun
import proofs.«122578_j27917287424795_1_alg».proof.Proof.KiRun
import proofs.«122578_j27917287424795_1_alg».proof.Proof.KiValue
import proofs.«122578_j27917287424795_1_alg».proof.Proof.RefRun
import proofs.«122578_j27917287424795_1_alg».proof.Proof.Bridge
import Idealize.ShloMosaic.Adequacy
import Idealize.ShloMosaic.Init

noncomputable section

namespace Cert.Proof

open Idealize.ShloMosaic Idealize.ShloMosaic.TcCoe Idealize.SL.Sem

/-- The program as printed runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefSide.run (F := Ideal) m ρ)

/-- The idealization rewrote no operation. -/
theorem preserves : Cert.preserves_Kernel_KernelIdeal := trivial

/-- From memories agreeing on the arguments both programs end with the result at one function of the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun r h c => ⟨(h c).1.trans ?_, (h c).2⟩)
    (Cert.ReferenceIdeal.RefSide.run (F := Ideal) m' ρ')
  obtain ⟨e0, e1, e2, e3, e4, e5, e6, e7, e8⟩ := hagree c
  rw [e0, e1, e2, e3, e4, e5, e6, e7, e8]
  exact (Cert.Bridge.result_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
